-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x320000 : Shape := ⟨2, ![2, 320000]⟩
abbrev S2x200000 : Shape := ⟨2, ![2, 200000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x256 .f32) (main_arg1 : IVec S2x320000 32) (main_arg2 : IVec S2x200000 32) (main_arg3 : FVec F S256x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x256 : Shape := ⟨2, ![50000, 256]⟩
abbrev S2x320000 : Shape := ⟨2, ![2, 320000]⟩
abbrev S2x200000 : Shape := ⟨2, ![2, 200000]⟩
abbrev S256x128 : Shape := ⟨2, ![256, 128]⟩
abbrev S128 : Shape := ⟨1, ![128]⟩
abbrev S128x128 : Shape := ⟨2, ![128, 128]⟩
abbrev S1x320000 : Shape := ⟨2, ![1, 320000]⟩
abbrev S320000 : Shape := ⟨1, ![320000]⟩
abbrev S50000 : Shape := ⟨1, ![50000]⟩
abbrev S370000 : Shape := ⟨1, ![370000]⟩
abbrev S_ : Shape := ⟨0, ![]⟩
abbrev S370000x1 : Shape := ⟨2, ![370000, 1]⟩
abbrev S50000x1 : Shape := ⟨2, ![50000, 1]⟩
abbrev S50000x128 : Shape := ⟨2, ![50000, 128]⟩
abbrev S5000x256 : Shape := ⟨2, ![5000, 256]⟩
abbrev S5000x1 : Shape := ⟨2, ![5000, 1]⟩
abbrev S5000x128 : Shape := ⟨2, ![5000, 128]⟩
abbrev S370000x128 : Shape := ⟨2, ![370000, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩

abbrev nBuf : Space → Nat
  | .hbm => 119
  | .vmem => 21
  | .smem => 0
  | _ => 0

abbrev bufTy : (tb : Table) → Fin (tcTables nBuf tb) → BufTy
  | .hbm, ⟨0, _⟩ => ⟨S50000x256, .f32⟩
  | .hbm, ⟨1, _⟩ => ⟨S2x320000, .i32⟩
  | .hbm, ⟨2, _⟩ => ⟨S2x200000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x320000, .i32⟩
  | .hbm, ⟨10, _⟩ => ⟨S320000, .i32⟩
  | .hbm, ⟨11, _⟩ => ⟨S1x320000, .i32⟩
  | .hbm, ⟨12, _⟩ => ⟨S320000, .i32⟩
  | .hbm, ⟨13, _⟩ => ⟨S50000, .i32⟩
  | .hbm, ⟨14, _⟩ => ⟨S370000, .i32⟩
  | .hbm, ⟨15, _⟩ => ⟨S370000, .i32⟩
  | .hbm, ⟨16, _⟩ => ⟨S_, .f32⟩
  | .hbm, ⟨17, _⟩ => ⟨S370000, .f32⟩
  | .hbm, ⟨18, _⟩ => ⟨S_, .f32⟩
  | .hbm, ⟨19, _⟩ => ⟨S50000, .f32⟩
  | .hbm, ⟨20, _⟩ => ⟨S370000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S_, .i32⟩
  | .hbm, ⟨33, _⟩ => ⟨S370000, .i32⟩
  | .hbm, ⟨34, _⟩ => ⟨S370000, .i1⟩
  | .hbm, ⟨35, _⟩ => ⟨S_, .i32⟩
  | .hbm, ⟨36, _⟩ => ⟨S370000, .i32⟩
  | .hbm, ⟨37, _⟩ => ⟨S370000, .i32⟩
  | .hbm, ⟨38, _⟩ => ⟨S370000, .i32⟩
  | .hbm, ⟨39, _⟩ => ⟨S370000x1, .i32⟩
  | .hbm, ⟨40, _⟩ => ⟨S370000x128, .f32⟩
  | .hbm, ⟨41, _⟩ => ⟨S_, .f32⟩
  | .hbm, ⟨42, _⟩ => ⟨S50000x128, .f32⟩
  | .hbm, ⟨43, _⟩ => ⟨S370000x1, .i32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S_, .i32⟩
  | .hbm, ⟨55, _⟩ => ⟨S370000, .i32⟩
  | .hbm, ⟨56, _⟩ => ⟨S370000, .i1⟩
  | .hbm, ⟨57, _⟩ => ⟨S_, .i32⟩
  | .hbm, ⟨58, _⟩ => ⟨S370000, .i32⟩
  | .hbm, ⟨59, _⟩ => ⟨S370000, .i32⟩
  | .hbm, ⟨60, _⟩ => ⟨S370000, .i32⟩
  | .hbm, ⟨61, _⟩ => ⟨S370000x1, .i32⟩
  | .hbm, ⟨62, _⟩ => ⟨S370000x128, .f32⟩
  | .hbm, ⟨63, _⟩ => ⟨S_, .f32⟩
  | .hbm, ⟨64, _⟩ => ⟨S50000x128, .f32⟩
  | .hbm, ⟨65, _⟩ => ⟨S370000x1, .i32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .i32⟩
  | .hbm, ⟨77, _⟩ => ⟨S370000, .i32⟩
  | .hbm, ⟨78, _⟩ => ⟨S370000, .i1⟩
  | .hbm, ⟨79, _⟩ => ⟨S_, .i32⟩
  | .hbm, ⟨80, _⟩ => ⟨S370000, .i32⟩
  | .hbm, ⟨81, _⟩ => ⟨S370000, .i32⟩
  | .hbm, ⟨82, _⟩ => ⟨S370000, .i32⟩
  | .hbm, ⟨83, _⟩ => ⟨S370000x1, .i32⟩
  | .hbm, ⟨84, _⟩ => ⟨S370000x128, .f32⟩
  | .hbm, ⟨85, _⟩ => ⟨S_, .f32⟩
  | .hbm, ⟨86, _⟩ => ⟨S50000x128, .f32⟩
  | .hbm, ⟨87, _⟩ => ⟨S370000x1, .i32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S1x200000, .i32⟩
  | .hbm, ⟨95, _⟩ => ⟨S200000, .i32⟩
  | .hbm, ⟨96, _⟩ => ⟨S_, .i32⟩
  | .hbm, ⟨97, _⟩ => ⟨S200000, .i32⟩
  | .hbm, ⟨98, _⟩ => ⟨S200000, .i1⟩
  | .hbm, ⟨99, _⟩ => ⟨S_, .i32⟩
  | .hbm, ⟨100, _⟩ => ⟨S200000, .i32⟩
  | .hbm, ⟨101, _⟩ => ⟨S200000, .i32⟩
  | .hbm, ⟨102, _⟩ => ⟨S200000, .i32⟩
  | .hbm, ⟨103, _⟩ => ⟨S200000x1, .i32⟩
  | .hbm, ⟨104, _⟩ => ⟨S200000x128, .f32⟩
  | .hbm, ⟨105, _⟩ => ⟨S1x200000, .i32⟩
  | .hbm, ⟨106, _⟩ => ⟨S200000, .i32⟩
  | .hbm, ⟨107, _⟩ => ⟨S_, .i32⟩
  | .hbm, ⟨108, _⟩ => ⟨S200000, .i32⟩
  | .hbm, ⟨109, _⟩ => ⟨S200000, .i1⟩
  | .hbm, ⟨110, _⟩ => ⟨S_, .i32⟩
  | .hbm, ⟨111, _⟩ => ⟨S200000, .i32⟩
  | .hbm, ⟨112, _⟩ => ⟨S200000, .i32⟩
  | .hbm, ⟨113, _⟩ => ⟨S200000, .i32⟩
  | .hbm, ⟨114, _⟩ => ⟨S200000x1, .i32⟩
  | .hbm, ⟨115, _⟩ => ⟨S200000x128, .f32⟩
  | .hbm, ⟨116, _⟩ => ⟨S200000x128, .f32⟩
  | .hbm, ⟨117, _⟩ => ⟨S_, .f32⟩
  | .hbm, ⟨118, _⟩ => ⟨S200000, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call1_cst : Ref sig .tc := ⟨.hbm, 50, rfl⟩
abbrev main_call1_v0 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call2_cst : Ref sig .tc := ⟨.hbm, 72, rfl⟩
abbrev main_call2_v0 : Ref sig .tc := ⟨.hbm, 73, rfl⟩
abbrev main_v49 : Ref sig .tc := ⟨.hbm, 74, rfl⟩
abbrev main_v50 : Ref sig .tc := ⟨.hbm, 75, rfl⟩
abbrev main_c_8 : Ref sig .tc := ⟨.hbm, 76, rfl⟩
abbrev main_v51 : Ref sig .tc := ⟨.hbm, 77, rfl⟩
abbrev main_v52 : Ref sig .tc := ⟨.hbm, 78, rfl⟩
abbrev main_c_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_11 : Ref sig .tc := ⟨.hbm, 96, rfl⟩
abbrev main_v68 : Ref sig .tc := ⟨.hbm, 97, rfl⟩
abbrev main_v69 : Ref sig .tc := ⟨.hbm, 98, rfl⟩
abbrev main_c_12 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_13 : Ref sig .tc := ⟨.hbm, 107, rfl⟩
abbrev main_v77 : Ref sig .tc := ⟨.hbm, 108, rfl⟩
abbrev main_v78 : Ref sig .tc := ⟨.hbm, 109, rfl⟩
abbrev main_c_14 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_15 : Ref sig .tc := ⟨.hbm, 117, rfl⟩
abbrev main_v85 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S50000_S370000_d0 : Shape.Concatenates [S320000, S50000] S370000 0
  bcast_S_S370000 : S_.BroadcastsInDim S370000 (![] : Fin 0 → Fin S370000.rank)
  bcast_S_S50000 : S_.BroadcastsInDim S50000 (![] : Fin 0 → Fin S50000.rank)
  bcast_S370000_S370000x1_0 : S370000.BroadcastsInDim S370000x1 (![0] : Fin 1 → Fin S370000x1.rank)
  bcast_S50000_S50000x1_0 : S50000.BroadcastsInDim S50000x1 (![0] : Fin 1 → Fin S50000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x128_S200000_d1 : S200000x128.ReducesTo [1] S200000
  h_S_ : 0 < S_.numel
  scatter_S50000_S370000x1_S370000_n_0_0_1_wf : ScatterDims.WF S50000 S370000x1 S370000 [] [0] [0] 1
  dot_S5000x256_S256x128_S5000x128_1_0_0_1_n_n_wf : DotDims.WF S5000x256 S256x128 S5000x128 [1] [0] [0] [1] [] []
  gather_S50000x128_S370000x1_S370000x128_1_0_n_n_0_1_1128_wf : GatherDims.WF S50000x128 S370000x1 S370000x128 [1] [0] [] [0] [] 1 ![1, 128]
  scatter_S50000x128_S370000x1_S370000x128_1_0_0_1_wf : ScatterDims.WF S50000x128 S370000x1 S370000x128 [1] [0] [0] 1
  dot_S5000x128_S128x128_S5000x128_1_0_0_1_n_n_wf : DotDims.WF S5000x128 S128x128 S5000x128 [1] [0] [0] [1] [] []
  gather_S50000x128_S200000x1_S200000x128_1_0_n_n_0_1_1128_wf : GatherDims.WF S50000x128 S200000x1 S200000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def scatter_S50000_S370000x1_S370000_n_0_0_1 : ScatterDims S50000 S370000x1 S370000 where
  updateWindowDims := []
  insertedWindowDims := [0]
  scatterDimsToOperandDims := [0]
  indexVectorDim := 1
  wf := scatter_S50000_S370000x1_S370000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S370000x1_S370000x128_1_0_n_n_0_1_1128 : GatherDims S50000x128 S370000x1 S370000x128 where
  offsetDims := [1]
  collapsedSliceDims := [0]
  operandBatchingDims := []
  startIndicesBatchingDims := []
  startIndexMap := [0]
  indexVectorDim := 1
  sliceSizes := ![1, 128]
  wf := gather_S50000x128_S370000x1_S370000x128_1_0_n_n_0_1_1128_wf
def scatter_S50000x128_S370000x1_S370000x128_1_0_0_1 : ScatterDims S50000x128 S370000x1 S370000x128 where
  updateWindowDims := [1]
  insertedWindowDims := [0]
  scatterDimsToOperandDims := [0]
  indexVectorDim := 1
  wf := scatter_S50000x128_S370000x1_S370000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v50) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x320000 : Shape := ⟨2, ![2, 320000]⟩
abbrev S2x200000 : Shape := ⟨2, ![2, 200000]⟩
abbrev S256x128 : Shape := ⟨2, ![256, 128]⟩
abbrev S128 : Shape := ⟨1, ![128]⟩
abbrev S128x128 : Shape := ⟨2, ![128, 128]⟩
abbrev S1x320000 : Shape := ⟨2, ![1, 320000]⟩
abbrev S320000 : Shape := ⟨1, ![320000]⟩
abbrev S50000x128 : Shape := ⟨2, ![50000, 128]⟩
abbrev S50000 : Shape := ⟨1, ![50000]⟩
abbrev S370000 : Shape := ⟨1, ![370000]⟩
abbrev S_ : Shape := ⟨0, ![]⟩
abbrev S370000x1 : Shape := ⟨2, ![370000, 1]⟩
abbrev S370000x128 : Shape := ⟨2, ![370000, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩

abbrev nBuf : Space → Nat
  | .hbm => 212
  | .vmem => 0
  | .smem => 0
  | _ => 0

abbrev hbmTy0_0 (i : Nat) : BufTy := match i % 128 with
  | 0 => ⟨S50000x256, .f32⟩
  | 1 => ⟨S2x320000, .i32⟩
  | 2 => ⟨S2x200000, .i32⟩
  | 3 => ⟨S256x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S1x320000, .i32⟩
  | 10 => ⟨S320000, .i32⟩
  | 11 => ⟨S1x320000, .i32⟩
  | 12 => ⟨S320000, .i32⟩
  | 13 => ⟨S50000x128, .f32⟩
  | 14 => ⟨S50000, .i32⟩
  | 15 => ⟨S370000, .i32⟩
  | 16 => ⟨S370000, .i32⟩
  | 17 => ⟨S_, .f32⟩
  | 18 => ⟨S370000, .f32⟩
  | 19 => ⟨S_, .f32⟩
  | 20 => ⟨S50000, .f32⟩
  | 21 => ⟨S370000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S370000, .i32⟩
  | 33 => ⟨S370000, .i1⟩
  | 34 => ⟨S_, .i32⟩
  | 35 => ⟨S370000, .i32⟩
  | 36 => ⟨S370000, .i32⟩
  | 37 => ⟨S370000, .i32⟩
  | 38 => ⟨S370000x1, .i32⟩
  | 39 => ⟨S370000, .f32⟩
  | 40 => ⟨S_, .i32⟩
  | 41 => ⟨S370000, .i32⟩
  | 42 => ⟨S370000, .i1⟩
  | 43 => ⟨S_, .i32⟩
  | 44 => ⟨S370000, .i32⟩
  | 45 => ⟨S370000, .i32⟩
  | 46 => ⟨S370000, .i32⟩
  | 47 => ⟨S370000x1, .i32⟩
  | 48 => ⟨S370000, .f32⟩
  | 49 => ⟨S370000, .f32⟩
  | 50 => ⟨S_, .i32⟩
  | 51 => ⟨S370000, .i32⟩
  | 52 => ⟨S370000, .i1⟩
  | 53 => ⟨S_, .i32⟩
  | 54 => ⟨S370000, .i32⟩
  | 55 => ⟨S370000, .i32⟩
  | 56 => ⟨S370000, .i32⟩
  | 57 => ⟨S370000x1, .i32⟩
  | 58 => ⟨S370000x128, .f32⟩
  | 59 => ⟨S370000x1, .f32⟩
  | 60 => ⟨S370000x128, .f32⟩
  | 61 => ⟨S370000x128, .f32⟩
  | 62 => ⟨S_, .f32⟩
  | 63 => ⟨S50000x128, .f32⟩
  | 64 => ⟨S370000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S50000, .i32⟩
  | 74 => ⟨S370000, .i32⟩
  | 75 => ⟨S370000, .i32⟩
  | 76 => ⟨S_, .f32⟩
  | 77 => ⟨S370000, .f32⟩
  | 78 => ⟨S_, .f32⟩
  | 79 => ⟨S50000, .f32⟩
  | 80 => ⟨S370000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S370000, .i32⟩
  | 92 => ⟨S370000, .i1⟩
  | 93 => ⟨S_, .i32⟩
  | 94 => ⟨S370000, .i32⟩
  | 95 => ⟨S370000, .i32⟩
  | 96 => ⟨S370000, .i32⟩
  | 97 => ⟨S370000x1, .i32⟩
  | 98 => ⟨S370000, .f32⟩
  | 99 => ⟨S_, .i32⟩
  | 100 => ⟨S370000, .i32⟩
  | 101 => ⟨S370000, .i1⟩
  | 102 => ⟨S_, .i32⟩
  | 103 => ⟨S370000, .i32⟩
  | 104 => ⟨S370000, .i32⟩
  | 105 => ⟨S370000, .i32⟩
  | 106 => ⟨S370000x1, .i32⟩
  | 107 => ⟨S370000, .f32⟩
  | 108 => ⟨S370000, .f32⟩
  | 109 => ⟨S_, .i32⟩
  | 110 => ⟨S370000, .i32⟩
  | 111 => ⟨S370000, .i1⟩
  | 112 => ⟨S_, .i32⟩
  | 113 => ⟨S370000, .i32⟩
  | 114 => ⟨S370000, .i32⟩
  | 115 => ⟨S370000, .i32⟩
  | 116 => ⟨S370000x1, .i32⟩
  | 117 => ⟨S370000x128, .f32⟩
  | 118 => ⟨S370000x1, .f32⟩
  | 119 => ⟨S370000x128, .f32⟩
  | 120 => ⟨S370000x128, .f32⟩
  | 121 => ⟨S_, .f32⟩
  | 122 => ⟨S50000x128, .f32⟩
  | 123 => ⟨S370000x1, .i32⟩
  | 124 => ⟨S50000x128, .f32⟩
  | 125 => ⟨S1x128, .f32⟩
  | 126 => ⟨S50000x128, .f32⟩
  | 127 => ⟨S50000x128, .f32⟩
  | _ => ⟨S50000x256, .f32⟩

abbrev hbmTy0_1 (i : Nat) : BufTy := match i % 128 with
  | 0 => ⟨S_, .f32⟩
  | 1 => ⟨S50000x128, .f32⟩
  | 2 => ⟨S50000x128, .f32⟩
  | 3 => ⟨S50000x128, .f32⟩
  | 4 => ⟨S50000, .i32⟩
  | 5 => ⟨S370000, .i32⟩
  | 6 => ⟨S370000, .i32⟩
  | 7 => ⟨S_, .f32⟩
  | 8 => ⟨S370000, .f32⟩
  | 9 => ⟨S_, .f32⟩
  | 10 => ⟨S50000, .f32⟩
  | 11 => ⟨S370000x1, .i32⟩
  | 12 => ⟨S50000, .f32⟩
  | 13 => ⟨S_, .f32⟩
  | 14 => ⟨S50000, .f32⟩
  | 15 => ⟨S50000, .i1⟩
  | 16 => ⟨S50000, .f32⟩
  | 17 => ⟨S_, .f32⟩
  | 18 => ⟨S_, .f32⟩
  | 19 => ⟨S50000, .f32⟩
  | 20 => ⟨S50000, .f32⟩
  | 21 => ⟨S_, .i32⟩
  | 22 => ⟨S370000, .i32⟩
  | 23 => ⟨S370000, .i1⟩
  | 24 => ⟨S_, .i32⟩
  | 25 => ⟨S370000, .i32⟩
  | 26 => ⟨S370000, .i32⟩
  | 27 => ⟨S370000, .i32⟩
  | 28 => ⟨S370000x1, .i32⟩
  | 29 => ⟨S370000, .f32⟩
  | 30 => ⟨S_, .i32⟩
  | 31 => ⟨S370000, .i32⟩
  | 32 => ⟨S370000, .i1⟩
  | 33 => ⟨S_, .i32⟩
  | 34 => ⟨S370000, .i32⟩
  | 35 => ⟨S370000, .i32⟩
  | 36 => ⟨S370000, .i32⟩
  | 37 => ⟨S370000x1, .i32⟩
  | 38 => ⟨S370000, .f32⟩
  | 39 => ⟨S370000, .f32⟩
  | 40 => ⟨S_, .i32⟩
  | 41 => ⟨S370000, .i32⟩
  | 42 => ⟨S370000, .i1⟩
  | 43 => ⟨S_, .i32⟩
  | 44 => ⟨S370000, .i32⟩
  | 45 => ⟨S370000, .i32⟩
  | 46 => ⟨S370000, .i32⟩
  | 47 => ⟨S370000x1, .i32⟩
  | 48 => ⟨S370000x128, .f32⟩
  | 49 => ⟨S370000x1, .f32⟩
  | 50 => ⟨S370000x128, .f32⟩
  | 51 => ⟨S370000x128, .f32⟩
  | 52 => ⟨S_, .f32⟩
  | 53 => ⟨S50000x128, .f32⟩
  | 54 => ⟨S370000x1, .i32⟩
  | 55 => ⟨S50000x128, .f32⟩
  | 56 => ⟨S1x128, .f32⟩
  | 57 => ⟨S50000x128, .f32⟩
  | 58 => ⟨S50000x128, .f32⟩
  | 59 => ⟨S1x200000, .i32⟩
  | 60 => ⟨S200000, .i32⟩
  | 61 => ⟨S_, .i32⟩
  | 62 => ⟨S200000, .i32⟩
  | 63 => ⟨S200000, .i1⟩
  | 64 => ⟨S_, .i32⟩
  | 65 => ⟨S200000, .i32⟩
  | 66 => ⟨S200000, .i32⟩
  | 67 => ⟨S200000, .i32⟩
  | 68 => ⟨S200000x1, .i32⟩
  | 69 => ⟨S200000x128, .f32⟩
  | 70 => ⟨S1x200000, .i32⟩
  | 71 => ⟨S200000, .i32⟩
  | 72 => ⟨S_, .i32⟩
  | 73 => ⟨S200000, .i32⟩
  | 74 => ⟨S200000, .i1⟩
  | 75 => ⟨S_, .i32⟩
  | 76 => ⟨S200000, .i32⟩
  | 77 => ⟨S200000, .i32⟩
  | 78 => ⟨S200000, .i32⟩
  | 79 => ⟨S200000x1, .i32⟩
  | 80 => ⟨S200000x128, .f32⟩
  | 81 => ⟨S200000x128, .f32⟩
  | 82 => ⟨S_, .f32⟩
  | 83 => ⟨S200000, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_v67 : Ref sig .tc := ⟨.hbm, 100, rfl⟩
abbrev main_v68 : Ref sig .tc := ⟨.hbm, 101, rfl⟩
abbrev main_c_16 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_17 : Ref sig .tc := ⟨.hbm, 109, rfl⟩
abbrev main_v75 : Ref sig .tc := ⟨.hbm, 110, rfl⟩
abbrev main_v76 : Ref sig .tc := ⟨.hbm, 111, rfl⟩
abbrev main_c_18 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call3_cst : Ref sig .tc := ⟨.hbm, 128, rfl⟩
abbrev main_call3_v0 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_20 : Ref sig .tc := ⟨.hbm, 135, rfl⟩
abbrev main_v96 : Ref sig .tc := ⟨.hbm, 136, rfl⟩
abbrev main_cst_21 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_22 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_23 : Ref sig .tc := ⟨.hbm, 145, rfl⟩
abbrev main_call4_v0 : Ref sig .tc := ⟨.hbm, 146, rfl⟩
abbrev main_call4_v1 : Ref sig .tc := ⟨.hbm, 147, rfl⟩
abbrev main_v103 : Ref sig .tc := ⟨.hbm, 148, rfl⟩
abbrev main_c_24 : Ref sig .tc := ⟨.hbm, 149, rfl⟩
abbrev main_v104 : Ref sig .tc := ⟨.hbm, 150, rfl⟩
abbrev main_v105 : Ref sig .tc := ⟨.hbm, 151, rfl⟩
abbrev main_c_25 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_c_26 : Ref sig .tc := ⟨.hbm, 158, rfl⟩
abbrev main_v111 : Ref sig .tc := ⟨.hbm, 159, rfl⟩
abbrev main_v112 : Ref sig .tc := ⟨.hbm, 160, rfl⟩
abbrev main_c_27 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_c_28 : Ref sig .tc := ⟨.hbm, 168, rfl⟩
abbrev main_v119 : Ref sig .tc := ⟨.hbm, 169, rfl⟩
abbrev main_v120 : Ref sig .tc := ⟨.hbm, 170, rfl⟩
abbrev main_c_29 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_cst_30 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_c_31 : Ref sig .tc := ⟨.hbm, 189, rfl⟩
abbrev main_v137 : Ref sig .tc := ⟨.hbm, 190, rfl⟩
abbrev main_v138 : Ref sig .tc := ⟨.hbm, 191, rfl⟩
abbrev main_c_32 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_c_33 : Ref sig .tc := ⟨.hbm, 200, rfl⟩
abbrev main_v146 : Ref sig .tc := ⟨.hbm, 201, rfl⟩
abbrev main_v147 : Ref sig .tc := ⟨.hbm, 202, rfl⟩
abbrev main_c_34 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_cst_35 : Ref sig .tc := ⟨.hbm, 210, rfl⟩
abbrev main_v154 : Ref sig .tc := ⟨.hbm, 211, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S50000_S370000_d0 : Shape.Concatenates [S320000, S50000] S370000 0
  bcast_S_S370000 : S_.BroadcastsInDim S370000 (![] : Fin 0 → Fin S370000.rank)
  bcast_S_S50000 : S_.BroadcastsInDim S50000 (![] : Fin 0 → Fin S50000.rank)
  bcast_S370000_S370000x1_0 : S370000.BroadcastsInDim S370000x1 (![0] : Fin 1 → Fin S370000x1.rank)
  bcast_S370000x1_S370000x128_0_1 : S370000x1.BroadcastsInDim S370000x128 (![0, 1] : Fin 2 → Fin S370000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x128_S200000_d1 : S200000x128.ReducesTo [1] S200000
  h_S_ : 0 < S_.numel
  dot_S50000x256_S256x128_S50000x128_1_0_0_1_n_n_wf : DotDims.WF S50000x256 S256x128 S50000x128 [1] [0] [0] [1] [] []
  scatter_S50000_S370000x1_S370000_n_0_0_1_wf : ScatterDims.WF S50000 S370000x1 S370000 [] [0] [0] 1
  gather_S50000_S370000x1_S370000_n_0_n_n_0_1_1_wf : GatherDims.WF S50000 S370000x1 S370000 [] [0] [] [0] [] 1 ![1]
  gather_S50000x128_S370000x1_S370000x128_1_0_n_n_0_1_1128_wf : GatherDims.WF S50000x128 S370000x1 S370000x128 [1] [0] [] [0] [] 1 ![1, 128]
  scatter_S50000x128_S370000x1_S370000x128_1_0_0_1_wf : ScatterDims.WF S50000x128 S370000x1 S370000x128 [1] [0] [0] 1
  dot_S50000x128_S128x128_S50000x128_1_0_0_1_n_n_wf : DotDims.WF S50000x128 S128x128 S50000x128 [1] [0] [0] [1] [] []
  gather_S50000x128_S200000x1_S200000x128_1_0_n_n_0_1_1128_wf : GatherDims.WF S50000x128 S200000x1 S200000x128 [1] [0] [] [0] [] 1 ![1, 128]

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S370000x1_S370000_n_0_0_1 : ScatterDims S50000 S370000x1 S370000 where
  updateWindowDims := []
  insertedWindowDims := [0]
  scatterDimsToOperandDims := [0]
  indexVectorDim := 1
  wf := scatter_S50000_S370000x1_S370000_n_0_0_1_wf
def gather_S50000_S370000x1_S370000_n_0_n_n_0_1_1 : GatherDims S50000 S370000x1 S370000 where
  offsetDims := []
  collapsedSliceDims := [0]
  operandBatchingDims := []
  startIndicesBatchingDims := []
  startIndexMap := [0]
  indexVectorDim := 1
  sliceSizes := ![1]
  wf := gather_S50000_S370000x1_S370000_n_0_n_n_0_1_1_wf
def gather_S50000x128_S370000x1_S370000x128_1_0_n_n_0_1_1128 : GatherDims S50000x128 S370000x1 S370000x128 where
  offsetDims := [1]
  collapsedSliceDims := [0]
  operandBatchingDims := []
  startIndicesBatchingDims := []
  startIndexMap := [0]
  indexVectorDim := 1
  sliceSizes := ![1, 128]
  wf := gather_S50000x128_S370000x1_S370000x128_1_0_n_n_0_1_1128_wf
def scatter_S50000x128_S370000x1_S370000x128_1_0_0_1 : ScatterDims S50000x128 S370000x1 S370000x128 where
  updateWindowDims := [1]
  insertedWindowDims := [0]
  scatterDimsToOperandDims := [0]
  indexVectorDim := 1
  wf := scatter_S50000x128_S370000x1_S370000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf

class Facts : Prop extends Facts₀ where

variable [Facts]
-- ==== Proof.KernelTerms.lean ====
/-
  The host-side pieces of the graph-convolution program, each as one function of the arrays it depends on: the edge
  endpoints with the self-loops appended, the in-degree and its inverse square root, the row gather at the (wrapped)
  sources and the accumulating scatter at the destinations, the bias, the rectifier, and the pair scores. In this
  program the per-node factor dinv is applied twice: once inside the matrix-product kernel (to the rows of x·W) and
  once after the segment sum (to the rows of the sum).
-/
import proofs.«118284_j48473000903025_2_alg».proof.KernelIdeal
import proofs.«118284_j48473000903025_2_alg».proof.Proof.Gen.KernelIdeal

noncomputable section

namespace Cert.KernelIdeal.Terms

open Idealize.ShloMosaic Cert.KernelIdeal Cert.KernelIdeal.Gen

variable {F : FTy → Type} [FloatOps F]

/-- The source row of the edge list followed by the node numbers 0 … n − 1: every node also sends to itself. -/
def srcFull (x1 : (⟨S2x320000, .i32⟩ : BufTy).Contents (Elt F)) : (⟨S370000, .i32⟩ : BufTy).Contents (Elt F) :=
  concatenate S370000 0 [⟨S320000, shapeCast _ (extractStridedSlice S1x320000 ![0, 0] x1 slices_S2x320000_S1x320000_0_0) shapeCasts_S1x320000_S320000⟩, ⟨S50000, iotaInDim S50000 32 0⟩] concatenates_S320000_S50000_S370000_d0

/-- The destination row of the edge list followed by the node numbers 0 … n − 1. -/
def dstFull (x1 : (⟨S2x320000, .i32⟩ : BufTy).Contents (Elt F)) : (⟨S370000, .i32⟩ : BufTy).Contents (Elt F) :=
  concatenate S370000 0 [⟨S320000, shapeCast _ (extractStridedSlice S1x320000 ![1, 0] x1 slices_S2x320000_S1x320000_1_0) shapeCasts_S1x320000_S320000⟩, ⟨S50000, iotaInDim S50000 32 0⟩] concatenates_S320000_S50000_S370000_d0

/-- A list of edge endpoints as a column of row numbers, as the scatter takes it: not wrapped. -/
def rawCol (v : (⟨S370000, .i32⟩ : BufTy).Contents (Elt F)) : (⟨S370000x1, .i32⟩ : BufTy).Contents (Elt F) :=
  broadcastInDim S370000x1 ![0] bcast_S370000_S370000x1_0 v

/-- The same column as a gather takes it: a negative number wrapped by adding n. -/
def wrapCol (v : (⟨S370000, .i32⟩ : BufTy).Contents (Elt F)) : (⟨S370000x1, .i32⟩ : BufTy).Contents (Elt F) :=
  broadcastInDim S370000x1 ![0] bcast_S370000_S370000x1_0 (select (cmpi .slt v (broadcastInDim S370000 ![] bcast_S_S370000 (constantI S_ 32 0#32))) (addi v (broadcastInDim S370000 ![] bcast_S_S370000 (constantI S_ 32 50000#32))) v)

/-- The in-degree of every node, self-loop included: ones added up at the destinations. -/
def deg (x1 : (⟨S2x320000, .i32⟩ : BufTy).Contents (Elt F)) : (⟨S50000, .f32⟩ : BufTy).Contents (Elt F) :=
  Host.scatterAdd scatter_S50000_S370000x1_S370000_n_0_0_1 (broadcastInDim S50000 ![] bcast_S_S50000 (constant S_ .f32 0x00000000#32)) (rawCol (dstFull x1)) (broadcastInDim S370000 ![] bcast_S_S370000 (constant S_ .f32 0x3F800000#32))

/-- deg^(−1/2) where the degree is positive, 0 elsewhere. -/
def dinv (x1 : (⟨S2x320000, .i32⟩ : BufTy).Contents (Elt F)) : (⟨S50000, .f32⟩ : BufTy).Contents (Elt F) :=
  select (cmpf .ogt (deg x1) (broadcastInDim S50000 ![] bcast_S_S50000 (constant S_ .f32 0x00000000#32))) (Host.rsqrt (deg x1)) (broadcastInDim S50000 ![] bcast_S_S50000 (id (constant S_ .f32 0x00000000#32)))

/-- The all-zero node table a segment sum starts from. -/
def zeros2 : (⟨S50000x128, .f32⟩ : BufTy).Contents (Elt F) :=
  broadcastInDim S50000x128 ![] bcast_S_S50000x128 (constant S_ .f32 0x00000000#32)

/-- A bias vector repeated down the rows of the node table. -/
def biasRows (b : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 b)

/-- max(x, 0), entry by entry. -/
def relu (x : (⟨S50000x128, .f32⟩ : BufTy).Contents (Elt F)) : (⟨S50000x128, .f32⟩ : BufTy).Contents (Elt F) :=
  maximumf x (broadcastInDim S50000x128 ![] bcast_S_S50000x128 (constant S_ .f32 0x00000000#32))

/-- Row r of the list of candidate pairs as a list of node numbers. -/
def pairRow0 (x2 : (⟨S2x200000, .i32⟩ : BufTy).Contents (Elt F)) : (⟨S200000, .i32⟩ : BufTy).Contents (Elt F) :=
  shapeCast _ (extractStridedSlice S1x200000 ![0, 0] x2 slices_S2x200000_S1x200000_0_0) shapeCasts_S1x200000_S200000

def pairRow1 (x2 : (⟨S2x200000, .i32⟩ : BufTy).Contents (Elt F)) : (⟨S200000, .i32⟩ : BufTy).Contents (Elt F) :=
  shapeCast _ (extractStridedSlice S1x200000 ![1, 0] x2 slices_S2x200000_S1x200000_1_0) shapeCasts_S1x200000_S200000

/-- A list of candidate endpoints as a wrapped column of node numbers. -/
def pairCol (v : (⟨S200000, .i32⟩ : BufTy).Contents (Elt F)) : (⟨S200000x1, .i32⟩ : BufTy).Contents (Elt F) :=
  broadcastInDim S200000x1 ![0] bcast_S200000_S200000x1_0 (select (cmpi .slt v (broadcastInDim S200000 ![] bcast_S_S200000 (constantI S_ 32 0#32))) (addi v (broadcastInDim S200000 ![] bcast_S_S200000 (constantI S_ 32 50000#32))) v)

/-- The score of every candidate pair: the inner product of the two nodes' rows of the last layer's output. -/
def decode (z : (⟨S50000x128, .f32⟩ : BufTy).Contents (Elt F)) (x2 : (⟨S2x200000, .i32⟩ : BufTy).Contents (Elt F)) : (⟨S200000, .f32⟩ : BufTy).Contents (Elt F) :=
  Host.reduceAdd (mulf (Host.gather gather_S50000x128_S200000x1_S200000x128_1_0_n_n_0_1_1128 z (pairCol (pairRow0 x2))) (Host.gather gather_S50000x128_S200000x1_S200000x128_1_0_n_n_0_1_1128 z (pairCol (pairRow1 x2)))) (constant S_ .f32 0x00000000#32) reducesTo_S200000x128_S200000_d1 h_S_

/-- deg^(−1/2) as a column, the form the matrix-product kernel reads it in. -/
def dinvCol (x1 : (⟨S2x320000, .i32⟩ : BufTy).Contents (Elt F)) : (⟨S50000x1, .f32⟩ : BufTy).Contents (Elt F) :=
  broadcastInDim S50000x1 ![0] bcast_S50000_S50000x1_0 (dinv x1)

/-- One layer after the scaled product hp = (x·W)·dinv, over its pieces: rows of hp gathered at the wrapped sources `s`
    and added up at the destinations `d`, the sum of node v scaled by the column `dcol` at v, plus the bias. -/
def tailG (hp : (⟨S50000x128, .f32⟩ : BufTy).Contents (Elt F)) (s d : (⟨S370000, .i32⟩ : BufTy).Contents (Elt F)) (dcol : (⟨S50000x1, .f32⟩ : BufTy).Contents (Elt F)) (b : (⟨S128, .f32⟩ : BufTy).Contents (Elt F)) : (⟨S50000x128, .f32⟩ : BufTy).Contents (Elt F) :=
  addf (mulf (broadcastInDim S50000x128 ![0, 1] bcast_S50000x1_S50000x128_0_1 dcol) (Host.scatterAdd scatter_S50000x128_S370000x1_S370000x128_1_0_0_1 (broadcastInDim S50000x128 ![] bcast_S_S50000x128 (constant S_ .f32 0x00000000#32)) (broadcastInDim S370000x1 ![0] bcast_S370000_S370000x1_0 d) (Host.gather gather_S50000x128_S370000x1_S370000x128_1_0_n_n_0_1_1128 hp (wrapCol s)))) (broadcastInDim S50000x128 ![0, 1] bcast_S1x128_S50000x128_0_1 (broadcastInDim S1x128 ![1] bcast_S128_S1x128_1 b))

/-- The same with the graph's own pieces: the endpoints and dinv computed from the edge list. -/
def tailK (hp : (⟨S50000x128, .f32⟩ : BufTy).Contents (Elt F)) (x1 : (⟨S2x320000, .i32⟩ : BufTy).Contents (Elt F)) (b : (⟨S128, .f32⟩ : BufTy).Contents (Elt F)) : (⟨S50000x128, .f32⟩ : BufTy).Contents (Elt F) :=
  tailG hp (srcFull x1) (dstFull x1) (dinvCol x1) b

end Cert.KernelIdeal.Terms

end
-- ==== Proof.MatScale.lean ====
/-
  What one launch of the matrix-product kernel leaves in its output array, as one function of its three argument
  arrays: entry (r, j) is the inner product of row r of x with column j of w, times the r-th entry of the column d.
  The kernel computes it 5000 rows at a time; the function does not mention the tiling.
-/
import Idealize.ShloMosaic.PureOps.Ideal
import Idealize.ShloMosaic.Lib.ValueIdx

noncomputable section

open scoped BigOperators

namespace Cert.MatScale

open Idealize.ShloMosaic Idealize.ShloMosaic.ValueIdx

/-- (x · w) with row r scaled by d r: a [50000, K] table times a [K, 128] matrix, rows scaled by a [50000, 1] column. -/
def matScale {K : Nat} (x : (⟨2, ![50000, K]⟩ : Shape).Idx → EReal) (w : (⟨2, ![K, 128]⟩ : Shape).Idx → EReal)
    (d : (⟨2, ![50000, 1]⟩ : Shape).Idx → EReal) : (⟨2, ![50000, 128]⟩ : Shape).Idx → EReal :=
  fun i => (∑ k : Fin K, x (ix2 (i 0) k) * w (ix2 k (i 1))) * d (ix2 (i 0) (0 : Fin 1))

theorem matScale_apply {K : Nat} (x : (⟨2, ![50000, K]⟩ : Shape).Idx → EReal) (w : (⟨2, ![K, 128]⟩ : Shape).Idx → EReal)
    (d : (⟨2, ![50000, 1]⟩ : Shape).Idx → EReal) (r : Fin 50000) (j : Fin 128) :
    matScale x w d (ix2 r j) = (∑ k : Fin K, x (ix2 r k) * w (ix2 k j)) * d (ix2 r (0 : Fin 1)) := rfl

end Cert.MatScale

end
-- ==== Proof.KernelScores.lean ====
/-
  The graph-convolution program's node table after each launch and each layer, and its pair scores, as functions of
  the nine arguments: a launch is `matScale` of the current table, a weight matrix and the column dinv; a layer's tail
  gathers, adds up, scales and adds the bias; the first two layers end in the rectifier.
-/
import proofs.«118284_j48473000903025_2_alg».proof.Proof.KernelTerms
import proofs.«118284_j48473000903025_2_alg».proof.Proof.MatScale

noncomputable section

namespace Cert.KernelIdeal.Chain

open Cert.KernelIdeal Cert.KernelIdeal.Terms Cert.MatScale Idealize.ShloMosaic

/-! ## The node table layer by layer, as functions of the arguments -/

/-- After the first launch: (x·W0)·dinv. -/
def hid0 (x0 : (⟨S50000x256, .f32⟩ : BufTy).Contents (Elt Ideal)) (x1 : (⟨S2x320000, .i32⟩ : BufTy).Contents (Elt Ideal)) (x3 : (⟨S256x128, .f32⟩ : BufTy).Contents (Elt Ideal)) : (⟨S50000x128, .f32⟩ : BufTy).Contents (Elt Ideal) :=
  matScale (K := 256) x0 x3 (dinvCol x1)
/-- The first layer's output, rectified. -/
def lay1 (x0 : (⟨S50000x256, .f32⟩ : BufTy).Contents (Elt Ideal)) (x1 : (⟨S2x320000, .i32⟩ : BufTy).Contents (Elt Ideal)) (x3 : (⟨S256x128, .f32⟩ : BufTy).Contents (Elt Ideal)) (x4 : (⟨S128, .f32⟩ : BufTy).Contents (Elt Ideal)) : (⟨S50000x128, .f32⟩ : BufTy).Contents (Elt Ideal) :=
  relu (tailK (hid0 x0 x1 x3) x1 x4)
def hid1 (x0 : (⟨S50000x256, .f32⟩ : BufTy).Contents (Elt Ideal)) (x1 : (⟨S2x320000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) : (⟨S50000x128, .f32⟩ : BufTy).Contents (Elt Ideal) :=
  matScale (K := 128) (lay1 x0 x1 x3 x4) x5 (dinvCol x1)
def lay2 (x0 : (⟨S50000x256, .f32⟩ : BufTy).Contents (Elt Ideal)) (x1 : (⟨S2x320000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) : (⟨S50000x128, .f32⟩ : BufTy).Contents (Elt Ideal) :=
  relu (tailK (hid1 x0 x1 x3 x4 x5) x1 x6)
def hid2 (x0 : (⟨S50000x256, .f32⟩ : BufTy).Contents (Elt Ideal)) (x1 : (⟨S2x320000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) : (⟨S50000x128, .f32⟩ : BufTy).Contents (Elt Ideal) :=
  matScale (K := 128) (lay2 x0 x1 x3 x4 x5 x6) x7 (dinvCol x1)
/-- The last layer's output: no rectifier. -/
def lay3 (x0 : (⟨S50000x256, .f32⟩ : BufTy).Contents (Elt Ideal)) (x1 : (⟨S2x320000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) : (⟨S50000x128, .f32⟩ : BufTy).Contents (Elt Ideal) :=
  tailK (hid2 x0 x1 x3 x4 x5 x6 x7) x1 x8
/-- The pair scores as this program computes them from the nine arguments. -/
def scores (x0 : (⟨S50000x256, .f32⟩ : BufTy).Contents (Elt Ideal)) (x1 : (⟨S2x320000, .i32⟩ : BufTy).Contents (Elt Ideal)) (x2 : (⟨S2x200000, .i32⟩ : BufTy).Contents (Elt Ideal)) (x3 : (⟨S256x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) : (⟨S200000, .f32⟩ : BufTy).Contents (Elt Ideal) :=
  decode (lay3 x0 x1 x3 x4 x5 x6 x7 x8) x2

end Cert.KernelIdeal.Chain

end
-- ==== Proof.Region0.lean ====
/-
  Launch 0 of the matrix-product kernel, read as one function of its argument arrays. The grid has ten points;
  point t stages rows 5000·t … 5000·t + 4999 of the node table x ([50000, 256]), the whole weight matrix w ([256, 128])
  and the same rows of the column d ([50000, 1]), and writes back the same rows of the output ([50000, 128]). The body
  multiplies the row block by w (into a zero accumulator, so the product is the plain sum over the 256 columns; the
  change of float format in front of it is the identity at the exact reading) and scales row p of the product by
  d p. So entry (p, q) of block t is entry (5000·t + p, q) of the whole-array function `matScale x w d`; the ten blocks
  cover the output array, which therefore ends holding `matScale x w d`.
-/
import proofs.«118284_j48473000903025_2_alg».proof.Proof.Gen.KernelIdeal.Frame
import proofs.«118284_j48473000903025_2_alg».proof.Proof.MatScale
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx Cert.MatScale
open Idealize.ShloMosaic.Pipeline (Dat)

/-! ## The body's value at an entry of the block -/

/-- The product's operand indices at output entry `i` and contraction index `q`: row of `i` and `q` on the left, `q` and
    column of `i` on the right. -/
theorem lhs_row (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_k (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_k (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_col (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The block product into a zero accumulator, at entry (p, q): the sum over the 256 columns of the row block. -/
theorem matmul_at {φ₁ φ₂ : FTy} (a : FVec Ideal S5000x256 φ₁) (b : FVec Ideal S256x128 φ₂) (p : Fin 5000) (q : Fin 128) :
    matmul dot_S5000x256_S256x128_S5000x128_1_0_0_1_n_n none a b (constant (F := Ideal) S5000x128 .f32 0x00000000#32) (ix2 p q)
      = ∑ k : Fin 256, a (ix2 p k) * b (ix2 k q) := by
  show FloatOps.matmul dot_S5000x256_S256x128_S5000x128_1_0_0_1_n_n none a b (constant (F := Ideal) S5000x128 .f32 0x00000000#32) (ix2 p q) = _
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhs_row _ _
    | ⟨1, _⟩ => exact (lhs_k _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhs_k _ _).trans hk
    | ⟨1, _⟩ => exact rhs_col _ _)
  rw [el, er]

/-- The column d re-laid onto itself and broadcast along the rows, at entry (p, q): d p. -/
theorem col_at (x2 : Vec Ideal S5000x1 .f32) (h1 : S5000x1.ShapeCasts S5000x1) (h2 : S5000x1.Broadcasts S5000x128) (p : Fin 5000) (q : Fin 128) :
    broadcastTo S5000x128 (shapeCast S5000x1 x2 h1) h2 (ix2 p q) = x2 (ix2 p (0 : Fin 1)) := by
  rw [shapeCast_self]
  exact broadcastTo_apply x2 h2 (ix2 p q) (ix2 p (0 : Fin 1)) (fun a => by
    match a with
    | ⟨0, _⟩ => rfl
    | ⟨1, _⟩ => rfl)

/-- What the body stores, at entry (p, q) of the block: row p of the block times column q of w, scaled by d p. -/
theorem pay_apply (x0 : Vec Ideal S5000x256 .f32) (x1 : Vec Ideal S256x128 .f32) (x2 : Vec Ideal S5000x1 .f32) (p : Fin 5000) (q : Fin 128) :
    k0_pay1 (F := Ideal) x0 x1 x2 (ix2 p q) = (∑ k : Fin 256, x0 (ix2 p k) * x1 (ix2 k q)) * x2 (ix2 p (0 : Fin 1)) := by
  unfold k0_pay1
  rw [mulf_apply, matmul_at, col_at]
  rfl

/-! ## From the blocks to the array -/

/-- A scaled inner product depends only on its factors. -/
theorem sum_mul_congr {n : Nat} (a a' b b' : Fin n → EReal) (d d' : EReal) (ha : ∀ k, a k = a' k) (hb : ∀ k, b k = b' k) (hd : d = d') :
    (∑ k : Fin n, a k * b k) * d = (∑ k : Fin n, a' k * b' k) * d' := by
  rw [hd, show a = a' from funext ha, show b = b' from funext hb]

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row block of x, of d and of the output move together, w stays, and every
    column index is 0. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 9 :=
  (by decide +kernel : ∀ t : Fin grid0.N, _)

/-- Every one of the ten row blocks is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- What point t writes back is block t of `matScale` of the arrays as the launch finds them. -/
theorem flushed_eq (c : Dev nD) (t : Fin cfg0.N) :
    (dat0 V c).flushed 3 t = ((cfg0.win 3).blk t).view.read (Elt Ideal) (matScale (K := 256) (V c main_arg0) (V c main_arg3) (V c main_v15)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x128) hz, View.ld_unit_zero (S := S5000x1) hz]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  have hp : p.val < 5000 := p.isLt
  have hq : q.val < 128 := q.isLt
  -- the row of the whole arrays that row p of block t is
  let r : Fin 50000 := ⟨win0_3.index t (0 : Fin 2) * 5000 + p.val, by omega⟩
  have hemb3 : ((cfg0.win 3).blk t).view.emb (ix2 p q) = ix2 r q := by
    funext a; apply Fin.ext
    match a with
    | ⟨0, _⟩ => show win0_3.index t (0 : Fin 2) * 5000 + 1 * p.val = win0_3.index t (0 : Fin 2) * 5000 + p.val; omega
    | ⟨1, _⟩ => show win0_3.index t (1 : Fin 2) * 128 + 1 * q.val = q.val; omega
  have hemb0 : ∀ k : Fin 256, ((cfg0.win 0).blk t).view.emb (ix2 p k) = ix2 r k := by
    intro k; funext a; apply Fin.ext
    have hk : k.val < 256 := k.isLt
    match a with
    | ⟨0, _⟩ => show win0_0.index t (0 : Fin 2) * 5000 + 1 * p.val = win0_3.index t (0 : Fin 2) * 5000 + p.val; omega
    | ⟨1, _⟩ => show win0_0.index t (1 : Fin 2) * 256 + 1 * k.val = k.val; omega
  have hemb1 : ∀ k : Fin 256, ((cfg0.win 1).blk t).view.emb (ix2 k q) = ix2 k q := by
    intro k; funext a; apply Fin.ext
    match a with
    | ⟨0, _⟩ => show win0_1.index t (0 : Fin 2) * 256 + 1 * k.val = k.val; omega
    | ⟨1, _⟩ => show win0_1.index t (1 : Fin 2) * 128 + 1 * q.val = q.val; omega
  have hemb2 : ((cfg0.win 2).blk t).view.emb (ix2 p (0 : Fin 1)) = ix2 r (0 : Fin 1) := by
    funext a; apply Fin.ext
    match a with
    | ⟨0, _⟩ => show win0_2.index t (0 : Fin 2) * 5000 + 1 * p.val = win0_3.index t (0 : Fin 2) * 5000 + p.val; omega
    | ⟨1, _⟩ => show win0_2.index t (1 : Fin 2) * 1 + 1 * 0 = 0; omega
  show k0_pay1 (F := Ideal) (iblk0 V c 0 t) (iblk0 V c 1 t) (iblk0 V c 2 t) (ix2 p q)
    = matScale (K := 256) (V c main_arg0) (V c main_arg3) (V c main_v15) (((cfg0.win 3).blk t).view.emb (ix2 p q))
  refine (pay_apply (iblk0 V c 0 t) (iblk0 V c 1 t) (iblk0 V c 2 t) p q).trans ?_
  rw [hemb3, matScale_apply]
  refine sum_mul_congr _ _ _ _ _ _ (fun k => ?_) (fun k => ?_) ?_
  · exact congrArg (V c main_arg0) (hemb0 k)
  · exact congrArg (V c main_arg3) (hemb1 k)
  · exact congrArg (V c main_v15) hemb2

/-- An index of the output array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole (Pipeline.arrRef spec0 3)).slice (win0_3.rect t)).set ↔ _
  rw [View.set_slice_whole, Rect.mem_set_unit]
  exact Iff.rfl

/-- Row r of the output is in the block of the point whose row-block index is r / 5000. -/
theorem covered (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the launch: `matScale` of the three argument arrays as the launch finds them. -/
theorem final (c : Dev nD) :
    (dat0 V c).arrAt 3 cfg0.N = matScale (K := 256) (V c main_arg0) (V c main_arg3) (V c main_v15) :=
  (dat0 V c).arrAt_eq_of_cover 3 (matScale (K := 256) (V c main_arg0) (V c main_arg3) (V c main_v15)) (fun t _ => flushed_eq V c t) (covered)

end Cert.KernelIdeal.Region0

end
-- ==== Proof.Region1.lean ====
/-
  Launch 1 of the matrix-product kernel, read as one function of its argument arrays. The grid has ten points;
  point t stages rows 5000·t … 5000·t + 4999 of the node table x ([50000, 128]), the whole weight matrix w ([128, 128])
  and the same rows of the column d ([50000, 1]), and writes back the same rows of the output ([50000, 128]). The body
  multiplies the row block by w (into a zero accumulator, so the product is the plain sum over the 128 columns; the
  change of float format in front of it is the identity at the exact reading) and scales row p of the product by
  d p. So entry (p, q) of block t is entry (5000·t + p, q) of the whole-array function `matScale x w d`; the ten blocks
  cover the output array, which therefore ends holding `matScale x w d`.
-/
import proofs.«118284_j48473000903025_2_alg».proof.Proof.Gen.KernelIdeal.Frame
import proofs.«118284_j48473000903025_2_alg».proof.Proof.MatScale
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx Cert.MatScale
open Idealize.ShloMosaic.Pipeline (Dat)

/-! ## The body's value at an entry of the block -/

/-- The product's operand indices at output entry `i` and contraction index `q`: row of `i` and `q` on the left, `q` and
    column of `i` on the right. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_k (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_k (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at entry (p, q): the sum over the 128 columns of the row block. -/
theorem matmul_at {φ₁ φ₂ : FTy} (a : FVec Ideal S5000x128 φ₁) (b : FVec Ideal S128x128 φ₂) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  show FloatOps.matmul dot_S5000x128_S128x128_S5000x128_1_0_0_1_n_n none a b (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_k _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_k _ _).trans hk
    | ⟨1, _⟩ => exact rhs_col _ _)
  rw [el, er]

/-- The column d re-laid onto itself and broadcast along the rows, at entry (p, q): d p. -/
theorem col_at (x2 : Vec Ideal S5000x1 .f32) (h1 : S5000x1.ShapeCasts S5000x1) (h2 : S5000x1.Broadcasts S5000x128) (p : Fin 5000) (q : Fin 128) :
    broadcastTo S5000x128 (shapeCast S5000x1 x2 h1) h2 (ix2 p q) = x2 (ix2 p (0 : Fin 1)) := by
  rw [shapeCast_self]
  exact broadcastTo_apply x2 h2 (ix2 p q) (ix2 p (0 : Fin 1)) (fun a => by
    match a with
    | ⟨0, _⟩ => rfl
    | ⟨1, _⟩ => rfl)

/-- What the body stores, at entry (p, q) of the block: row p of the block times column q of w, scaled by d p. -/
theorem pay_apply (x0 : Vec Ideal S5000x128 .f32) (x1 : Vec Ideal S128x128 .f32) (x2 : Vec Ideal S5000x1 .f32) (p : Fin 5000) (q : Fin 128) :
    k1_pay1 (F := Ideal) x0 x1 x2 (ix2 p q) = (∑ k : Fin 128, x0 (ix2 p k) * x1 (ix2 k q)) * x2 (ix2 p (0 : Fin 1)) := by
  unfold k1_pay1
  rw [mulf_apply, matmul_at, col_at, shapeCast_self]
  rfl

/-! ## From the blocks to the array -/

/-- A scaled inner product depends only on its factors. -/
theorem sum_mul_congr {n : Nat} (a a' b b' : Fin n → EReal) (d d' : EReal) (ha : ∀ k, a k = a' k) (hb : ∀ k, b k = b' k) (hd : d = d') :
    (∑ k : Fin n, a k * b k) * d = (∑ k : Fin n, a' k * b' k) * d' := by
  rw [hd, show a = a' from funext ha, show b = b' from funext hb]

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row block of x, of d and of the output move together, w stays, and every
    column index is 0. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = win1_3.index t (0 : Fin 2) ∧ win1_2.index t (1 : Fin 2) = 0
    ∧ win1_3.index t (1 : Fin 2) = 0 ∧ win1_3.index t (0 : Fin 2) ≤ 9 :=
  (by decide +kernel : ∀ t : Fin grid1.N, _)

/-- Every one of the ten row blocks is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- What point t writes back is block t of `matScale` of the arrays as the launch finds them. -/
theorem flushed_eq (c : Dev nD) (t : Fin cfg1.N) :
    (dat1 V c).flushed 3 t = ((cfg1.win 3).blk t).view.read (Elt Ideal) (matScale (K := 128) (V c main_v32) (V c main_arg5) (V c main_v15)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S5000x1) hz]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  have hp : p.val < 5000 := p.isLt
  have hq : q.val < 128 := q.isLt
  -- the row of the whole arrays that row p of block t is
  let r : Fin 50000 := ⟨win1_3.index t (0 : Fin 2) * 5000 + p.val, by omega⟩
  have hemb3 : ((cfg1.win 3).blk t).view.emb (ix2 p q) = ix2 r q := by
    funext a; apply Fin.ext
    match a with
    | ⟨0, _⟩ => show win1_3.index t (0 : Fin 2) * 5000 + 1 * p.val = win1_3.index t (0 : Fin 2) * 5000 + p.val; omega
    | ⟨1, _⟩ => show win1_3.index t (1 : Fin 2) * 128 + 1 * q.val = q.val; omega
  have hemb0 : ∀ k : Fin 128, ((cfg1.win 0).blk t).view.emb (ix2 p k) = ix2 r k := by
    intro k; funext a; apply Fin.ext
    have hk : k.val < 128 := k.isLt
    match a with
    | ⟨0, _⟩ => show win1_0.index t (0 : Fin 2) * 5000 + 1 * p.val = win1_3.index t (0 : Fin 2) * 5000 + p.val; omega
    | ⟨1, _⟩ => show win1_0.index t (1 : Fin 2) * 128 + 1 * k.val = k.val; omega
  have hemb1 : ∀ k : Fin 128, ((cfg1.win 1).blk t).view.emb (ix2 k q) = ix2 k q := by
    intro k; funext a; apply Fin.ext
    match a with
    | ⟨0, _⟩ => show win1_1.index t (0 : Fin 2) * 128 + 1 * k.val = k.val; omega
    | ⟨1, _⟩ => show win1_1.index t (1 : Fin 2) * 128 + 1 * q.val = q.val; omega
  have hemb2 : ((cfg1.win 2).blk t).view.emb (ix2 p (0 : Fin 1)) = ix2 r (0 : Fin 1) := by
    funext a; apply Fin.ext
    match a with
    | ⟨0, _⟩ => show win1_2.index t (0 : Fin 2) * 5000 + 1 * p.val = win1_3.index t (0 : Fin 2) * 5000 + p.val; omega
    | ⟨1, _⟩ => show win1_2.index t (1 : Fin 2) * 1 + 1 * 0 = 0; omega
  show k1_pay1 (F := Ideal) (iblk1 V c 0 t) (iblk1 V c 1 t) (iblk1 V c 2 t) (ix2 p q)
    = matScale (K := 128) (V c main_v32) (V c main_arg5) (V c main_v15) (((cfg1.win 3).blk t).view.emb (ix2 p q))
  refine (pay_apply (iblk1 V c 0 t) (iblk1 V c 1 t) (iblk1 V c 2 t) p q).trans ?_
  rw [hemb3, matScale_apply]
  refine sum_mul_congr _ _ _ _ _ _ (fun k => ?_) (fun k => ?_) ?_
  · exact congrArg (V c main_v32) (hemb0 k)
  · exact congrArg (V c main_arg5) (hemb1 k)
  · exact congrArg (V c main_v15) hemb2

/-- An index of the output array is in point t's block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole (Pipeline.arrRef spec1 3)).slice (win1_3.rect t)).set ↔ _
  rw [View.set_slice_whole, Rect.mem_set_unit]
  exact Iff.rfl

/-- Row r of the output is in the block of the point whose row-block index is r / 5000. -/
theorem covered (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array after the launch: `matScale` of the three argument arrays as the launch finds them. -/
theorem final (c : Dev nD) :
    (dat1 V c).arrAt 3 cfg1.N = matScale (K := 128) (V c main_v32) (V c main_arg5) (V c main_v15) :=
  (dat1 V c).arrAt_eq_of_cover 3 (matScale (K := 128) (V c main_v32) (V c main_arg5) (V c main_v15)) (fun t _ => flushed_eq V c t) (covered)

end Cert.KernelIdeal.Region1

end
-- ==== Proof.Region2.lean ====
/-
  Launch 2 of the matrix-product kernel, read as one function of its argument arrays. The grid has ten points;
  point t stages rows 5000·t … 5000·t + 4999 of the node table x ([50000, 128]), the whole weight matrix w ([128, 128])
  and the same rows of the column d ([50000, 1]), and writes back the same rows of the output ([50000, 128]). The body
  multiplies the row block by w (into a zero accumulator, so the product is the plain sum over the 128 columns; the
  change of float format in front of it is the identity at the exact reading) and scales row p of the product by
  d p. So entry (p, q) of block t is entry (5000·t + p, q) of the whole-array function `matScale x w d`; the ten blocks
  cover the output array, which therefore ends holding `matScale x w d`.
-/
import proofs.«118284_j48473000903025_2_alg».proof.Proof.Gen.KernelIdeal.Frame
import proofs.«118284_j48473000903025_2_alg».proof.Proof.MatScale
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx Cert.MatScale
open Idealize.ShloMosaic.Pipeline (Dat)

/-! ## The body's value at an entry of the block -/

/-- The product's operand indices at output entry `i` and contraction index `q`: row of `i` and `q` on the left, `q` and
    column of `i` on the right. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_k (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_k (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at entry (p, q): the sum over the 128 columns of the row block. -/
theorem matmul_at {φ₁ φ₂ : FTy} (a : FVec Ideal S5000x128 φ₁) (b : FVec Ideal S128x128 φ₂) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  show FloatOps.matmul dot_S5000x128_S128x128_S5000x128_1_0_0_1_n_n none a b (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_k _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_k _ _).trans hk
    | ⟨1, _⟩ => exact rhs_col _ _)
  rw [el, er]

/-- The column d re-laid onto itself and broadcast along the rows, at entry (p, q): d p. -/
theorem col_at (x2 : Vec Ideal S5000x1 .f32) (h1 : S5000x1.ShapeCasts S5000x1) (h2 : S5000x1.Broadcasts S5000x128) (p : Fin 5000) (q : Fin 128) :
    broadcastTo S5000x128 (shapeCast S5000x1 x2 h1) h2 (ix2 p q) = x2 (ix2 p (0 : Fin 1)) := by
  rw [shapeCast_self]
  exact broadcastTo_apply x2 h2 (ix2 p q) (ix2 p (0 : Fin 1)) (fun a => by
    match a with
    | ⟨0, _⟩ => rfl
    | ⟨1, _⟩ => rfl)

/-- What the body stores, at entry (p, q) of the block: row p of the block times column q of w, scaled by d p. -/
theorem pay_apply (x0 : Vec Ideal S5000x128 .f32) (x1 : Vec Ideal S128x128 .f32) (x2 : Vec Ideal S5000x1 .f32) (p : Fin 5000) (q : Fin 128) :
    k2_pay1 (F := Ideal) x0 x1 x2 (ix2 p q) = (∑ k : Fin 128, x0 (ix2 p k) * x1 (ix2 k q)) * x2 (ix2 p (0 : Fin 1)) := by
  unfold k2_pay1
  rw [mulf_apply, matmul_at, col_at, shapeCast_self]
  rfl

/-! ## From the blocks to the array -/

/-- A scaled inner product depends only on its factors. -/
theorem sum_mul_congr {n : Nat} (a a' b b' : Fin n → EReal) (d d' : EReal) (ha : ∀ k, a k = a' k) (hb : ∀ k, b k = b' k) (hd : d = d') :
    (∑ k : Fin n, a k * b k) * d = (∑ k : Fin n, a' k * b' k) * d' := by
  rw [hd, show a = a' from funext ha, show b = b' from funext hb]

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row block of x, of d and of the output move together, w stays, and every
    column index is 0. -/
theorem idx_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = win2_3.index t (0 : Fin 2) ∧ win2_2.index t (1 : Fin 2) = 0
    ∧ win2_3.index t (1 : Fin 2) = 0 ∧ win2_3.index t (0 : Fin 2) ≤ 9 :=
  (by decide +kernel : ∀ t : Fin grid2.N, _)

/-- Every one of the ten row blocks is some point's. -/
theorem idx_onto : ∀ q0 : Fin 10, ∃ t : Fin cfg2.N, win2_3.index t = ![q0.val, 0] :=
  (by decide +kernel : ∀ q0 : Fin 10, ∃ t : Fin grid2.N, win2_3.index t = ![q0.val, 0])

/-- What point t writes back is block t of `matScale` of the arrays as the launch finds them. -/
theorem flushed_eq (c : Dev nD) (t : Fin cfg2.N) :
    (dat2 V c).flushed 3 t = ((cfg2.win 3).blk t).view.read (Elt Ideal) (matScale (K := 128) (V c main_v49) (V c main_arg7) (V c main_v15)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S5000x1) hz]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  have hp : p.val < 5000 := p.isLt
  have hq : q.val < 128 := q.isLt
  -- the row of the whole arrays that row p of block t is
  let r : Fin 50000 := ⟨win2_3.index t (0 : Fin 2) * 5000 + p.val, by omega⟩
  have hemb3 : ((cfg2.win 3).blk t).view.emb (ix2 p q) = ix2 r q := by
    funext a; apply Fin.ext
    match a with
    | ⟨0, _⟩ => show win2_3.index t (0 : Fin 2) * 5000 + 1 * p.val = win2_3.index t (0 : Fin 2) * 5000 + p.val; omega
    | ⟨1, _⟩ => show win2_3.index t (1 : Fin 2) * 128 + 1 * q.val = q.val; omega
  have hemb0 : ∀ k : Fin 128, ((cfg2.win 0).blk t).view.emb (ix2 p k) = ix2 r k := by
    intro k; funext a; apply Fin.ext
    have hk : k.val < 128 := k.isLt
    match a with
    | ⟨0, _⟩ => show win2_0.index t (0 : Fin 2) * 5000 + 1 * p.val = win2_3.index t (0 : Fin 2) * 5000 + p.val; omega
    | ⟨1, _⟩ => show win2_0.index t (1 : Fin 2) * 128 + 1 * k.val = k.val; omega
  have hemb1 : ∀ k : Fin 128, ((cfg2.win 1).blk t).view.emb (ix2 k q) = ix2 k q := by
    intro k; funext a; apply Fin.ext
    match a with
    | ⟨0, _⟩ => show win2_1.index t (0 : Fin 2) * 128 + 1 * k.val = k.val; omega
    | ⟨1, _⟩ => show win2_1.index t (1 : Fin 2) * 128 + 1 * q.val = q.val; omega
  have hemb2 : ((cfg2.win 2).blk t).view.emb (ix2 p (0 : Fin 1)) = ix2 r (0 : Fin 1) := by
    funext a; apply Fin.ext
    match a with
    | ⟨0, _⟩ => show win2_2.index t (0 : Fin 2) * 5000 + 1 * p.val = win2_3.index t (0 : Fin 2) * 5000 + p.val; omega
    | ⟨1, _⟩ => show win2_2.index t (1 : Fin 2) * 1 + 1 * 0 = 0; omega
  show k2_pay1 (F := Ideal) (iblk2 V c 0 t) (iblk2 V c 1 t) (iblk2 V c 2 t) (ix2 p q)
    = matScale (K := 128) (V c main_v49) (V c main_arg7) (V c main_v15) (((cfg2.win 3).blk t).view.emb (ix2 p q))
  refine (pay_apply (iblk2 V c 0 t) (iblk2 V c 1 t) (iblk2 V c 2 t) p q).trans ?_
  rw [hemb3, matScale_apply]
  refine sum_mul_congr _ _ _ _ _ _ (fun k => ?_) (fun k => ?_) ?_
  · exact congrArg (V c main_v49) (hemb0 k)
  · exact congrArg (V c main_arg7) (hemb1 k)
  · exact congrArg (V c main_v15) hemb2

/-- An index of the output array is in point t's block iff each coordinate is in the block's range on its axis. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole (Pipeline.arrRef spec2 3)).slice (win2_3.rect t)).set ↔ _
  rw [View.set_slice_whole, Rect.mem_set_unit]
  exact Iff.rfl

/-- Row r of the output is in the block of the point whose row-block index is r / 5000. -/
theorem covered (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The output array after the launch: `matScale` of the three argument arrays as the launch finds them. -/
theorem final (c : Dev nD) :
    (dat2 V c).arrAt 3 cfg2.N = matScale (K := 128) (V c main_v49) (V c main_arg7) (V c main_v15) :=
  (dat2 V c).arrAt_eq_of_cover 3 (matScale (K := 128) (V c main_v49) (V c main_arg7) (V c main_v15)) (fun t _ => flushed_eq V c t) (covered)

end Cert.KernelIdeal.Region2

end
-- ==== Proof.KernelChain.lean ====
/-
  The graph-convolution program's result, read back through its eleven segments. At each boundary between segments the
  live buffers hold: the edge endpoints with the self-loops appended, the column dinv, the arguments still to be read,
  and the current node table. A stretch of host operations turns the output of the matrix-product kernel, (h·W)·dinv,
  into the next layer's input: gather at the sources, add up at the destinations, scale by dinv, add the bias, rectify.
  A launch of the kernel replaces the node table by `matScale` of it. The last stretch scores the candidate pairs.
  Every lemma below says what one buffer holds at one boundary; the last one is the program's result as a
  composition of these pieces applied to the nine arguments as launched.
-/
import proofs.«118284_j48473000903025_2_alg».proof.Proof.Gen.KernelIdeal.Frame
import proofs.«118284_j48473000903025_2_alg».proof.Proof.KernelTerms
import proofs.«118284_j48473000903025_2_alg».proof.Proof.MatScale
import proofs.«118284_j48473000903025_2_alg».proof.Proof.KernelScores
import proofs.«118284_j48473000903025_2_alg».proof.Proof.Region0
import proofs.«118284_j48473000903025_2_alg».proof.Proof.Region1
import proofs.«118284_j48473000903025_2_alg».proof.Proof.Region2
import Idealize.ShloMosaic.Lib.StableHlo.Run

set_option maxRecDepth 16384

noncomputable section

namespace Cert.KernelIdeal.Chain

open Cert.KernelIdeal Cert.KernelIdeal.Gen Cert.KernelIdeal.Terms Cert.MatScale
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Entering the first launch: everything computed from the edge list, and the arguments -/

theorem W3_v5 : W3 m ρ c (Proc.devRef .tc main_v5) = srcFull (m ((c : Thread nD τ).loc main_arg1)) := by
  show StableHlo.after hostOps0_2 (StableHlo.after hostOps0_1 (StableHlo.after hostOps0 (W0 m ρ c))) (Proc.devRef .tc main_v5) = _
  after_results
  rfl
theorem W3_v6 : W3 m ρ c (Proc.devRef .tc main_v6) = dstFull (m ((c : Thread nD τ).loc main_arg1)) := by
  show StableHlo.after hostOps0_2 (StableHlo.after hostOps0_1 (StableHlo.after hostOps0 (W0 m ρ c))) (Proc.devRef .tc main_v6) = _
  after_results
  rfl
/-- The three stretches before the first launch, each from ANY contents `Wb`: the compare and the inverse square root of
    the degree; the select between them (`where`); the result laid out as a column. -/
theorem first_v12 (Wb : Valuation τ sig (Elt Ideal)) : StableHlo.after hostOps0 Wb (Proc.devRef .tc main_v12)
    = cmpf .ogt (deg (Wb (Proc.devRef .tc main_arg1))) (broadcastInDim S50000 ![] bcast_S_S50000 (constant S_ .f32 0x00000000#32)) := by
  after_results
  rfl
theorem first_v13 (Wb : Valuation τ sig (Elt Ideal)) : StableHlo.after hostOps0 Wb (Proc.devRef .tc main_v13)
    = Host.rsqrt (deg (Wb (Proc.devRef .tc main_arg1))) := by
  after_results
  rfl
theorem first_cst_2 (Wb : Valuation τ sig (Elt Ideal)) : StableHlo.after hostOps0 Wb (Proc.devRef .tc main_cst_2)
    = constant (F := Ideal) S_ .f32 0x00000000#32 := by
  after_results
theorem where_v14 (Wb : Valuation τ sig (Elt Ideal)) : StableHlo.after hostOps0_1 Wb (Proc.devRef .tc main_v14)
    = select (Wb (Proc.devRef .tc main_v12)) (Wb (Proc.devRef .tc main_v13)) (broadcastInDim S50000 ![] bcast_S_S50000 (id (Wb (Proc.devRef .tc main_cst_2)))) := by
  after_results
  rfl
theorem col_v15 (Wb : Valuation τ sig (Elt Ideal)) : StableHlo.after hostOps0_2 Wb (Proc.devRef .tc main_v15)
    = broadcastInDim S50000x1 ![0] bcast_S50000_S50000x1_0 (Wb (Proc.devRef .tc main_v14)) := by
  after_results
theorem W3_v15 : W3 m ρ c (Proc.devRef .tc main_v15) = dinvCol (m ((c : Thread nD τ).loc main_arg1)) := by
  have h2 : W2 m ρ c (Proc.devRef .tc main_v14) = _ := where_v14 (W1 m ρ c)
  have h12 : W1 m ρ c (Proc.devRef .tc main_v12) = _ := first_v12 (W0 m ρ c)
  have h13 : W1 m ρ c (Proc.devRef .tc main_v13) = _ := first_v13 (W0 m ρ c)
  have hc2 : W1 m ρ c (Proc.devRef .tc main_cst_2) = _ := first_cst_2 (W0 m ρ c)
  refine (col_v15 (W2 m ρ c)).trans ?_
  rw [h2, h12, h13, hc2]
  rfl
theorem W3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results
theorem W3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results
theorem W3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results
theorem W3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results
theorem W3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results
theorem W3_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results
theorem W3_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results
theorem W3_arg8 : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  after_results

/-! ## Leaving launch 0 -/

theorem W4_v16 : W4 m ρ c (Proc.devRef .tc main_v16) = hid0 (m ((c : Thread nD τ).loc main_arg0)) (m ((c : Thread nD τ).loc main_arg1)) (m ((c : Thread nD τ).loc main_arg3)) := by
  have e0 : V3 m ρ c main_arg0 = (m ((c : Thread nD τ).loc main_arg0)) := W3_arg0 m ρ c
  have e1 : V3 m ρ c main_arg3 = (m ((c : Thread nD τ).loc main_arg3)) := W3_arg3 m ρ c
  have e2 : V3 m ρ c main_v15 = dinvCol (m ((c : Thread nD τ).loc main_arg1)) := W3_v15 m ρ c
  have h := (W4_arr m ρ c 3).trans (Region0.final (V3 m ρ) c)
  rw [e0, e1, e2] at h
  exact h
theorem W4_v15 : W4 m ρ c (Proc.devRef .tc main_v15) = dinvCol (m ((c : Thread nD τ).loc main_arg1)) := by
  exact ((W4_arr m ρ c 2).trans (((dat0 (V3 m ρ) c).arrAt_in 2 rfl _).trans (A_eq0 (V3 m ρ) c 2))).trans (W3_v15 m ρ c)
theorem W4_v5 : W4 m ρ c (Proc.devRef .tc main_v5) = srcFull (m ((c : Thread nD τ).loc main_arg1)) := by
  exact (W4_of_ne m ρ c main_v5 (by decide)).trans (W3_v5 m ρ c)
theorem W4_v6 : W4 m ρ c (Proc.devRef .tc main_v6) = dstFull (m ((c : Thread nD τ).loc main_arg1)) := by
  exact (W4_of_ne m ρ c main_v6 (by decide)).trans (W3_v6 m ρ c)
theorem W4_arg2 : W4 m ρ c (Proc.devRef .tc main_arg2) = (m ((c : Thread nD τ).loc main_arg2)) := by
  exact (W4_of_ne m ρ c main_arg2 (by decide)).trans (W3_arg2 m ρ c)
theorem W4_arg4 : W4 m ρ c (Proc.devRef .tc main_arg4) = (m ((c : Thread nD τ).loc main_arg4)) := by
  exact (W4_of_ne m ρ c main_arg4 (by decide)).trans (W3_arg4 m ρ c)
theorem W4_arg5 : W4 m ρ c (Proc.devRef .tc main_arg5) = (m ((c : Thread nD τ).loc main_arg5)) := by
  exact (W4_of_ne m ρ c main_arg5 (by decide)).trans (W3_arg5 m ρ c)
theorem W4_arg6 : W4 m ρ c (Proc.devRef .tc main_arg6) = (m ((c : Thread nD τ).loc main_arg6)) := by
  exact (W4_of_ne m ρ c main_arg6 (by decide)).trans (W3_arg6 m ρ c)
theorem W4_arg7 : W4 m ρ c (Proc.devRef .tc main_arg7) = (m ((c : Thread nD τ).loc main_arg7)) := by
  exact (W4_of_ne m ρ c main_arg7 (by decide)).trans (W3_arg7 m ρ c)
theorem W4_arg8 : W4 m ρ c (Proc.devRef .tc main_arg8) = (m ((c : Thread nD τ).loc main_arg8)) := by
  exact (W4_of_ne m ρ c main_arg8 (by decide)).trans (W3_arg8 m ρ c)

/-! ## The first layer's tail and rectifier -/

theorem W6_v32 : W6 m ρ c (Proc.devRef .tc main_v32) = lay1 (m ((c : Thread nD τ).loc main_arg0)) (m ((c : Thread nD τ).loc main_arg1)) (m ((c : Thread nD τ).loc main_arg3)) (m ((c : Thread nD τ).loc main_arg4)) := by
  show StableHlo.after hostOps1_1 (StableHlo.after hostOps1 (W4 m ρ c)) (Proc.devRef .tc main_v32) = _
  after_results_simp
  rw [W4_v16 m ρ c, W4_v5 m ρ c, W4_v6 m ρ c, W4_v15 m ρ c, W4_arg4 m ρ c]
  rfl
theorem W6_v5 : W6 m ρ c (Proc.devRef .tc main_v5) = srcFull (m ((c : Thread nD τ).loc main_arg1)) := by
  show StableHlo.after hostOps1_1 (StableHlo.after hostOps1 (W4 m ρ c)) (Proc.devRef .tc main_v5) = _
  after_results
  exact W4_v5 m ρ c
theorem W6_v6 : W6 m ρ c (Proc.devRef .tc main_v6) = dstFull (m ((c : Thread nD τ).loc main_arg1)) := by
  show StableHlo.after hostOps1_1 (StableHlo.after hostOps1 (W4 m ρ c)) (Proc.devRef .tc main_v6) = _
  after_results
  exact W4_v6 m ρ c
theorem W6_v15 : W6 m ρ c (Proc.devRef .tc main_v15) = dinvCol (m ((c : Thread nD τ).loc main_arg1)) := by
  show StableHlo.after hostOps1_1 (StableHlo.after hostOps1 (W4 m ρ c)) (Proc.devRef .tc main_v15) = _
  after_results
  exact W4_v15 m ρ c
theorem W6_arg2 : W6 m ρ c (Proc.devRef .tc main_arg2) = (m ((c : Thread nD τ).loc main_arg2)) := by
  show StableHlo.after hostOps1_1 (StableHlo.after hostOps1 (W4 m ρ c)) (Proc.devRef .tc main_arg2) = _
  after_results
  exact W4_arg2 m ρ c
theorem W6_arg5 : W6 m ρ c (Proc.devRef .tc main_arg5) = (m ((c : Thread nD τ).loc main_arg5)) := by
  show StableHlo.after hostOps1_1 (StableHlo.after hostOps1 (W4 m ρ c)) (Proc.devRef .tc main_arg5) = _
  after_results
  exact W4_arg5 m ρ c
theorem W6_arg6 : W6 m ρ c (Proc.devRef .tc main_arg6) = (m ((c : Thread nD τ).loc main_arg6)) := by
  show StableHlo.after hostOps1_1 (StableHlo.after hostOps1 (W4 m ρ c)) (Proc.devRef .tc main_arg6) = _
  after_results
  exact W4_arg6 m ρ c
theorem W6_arg7 : W6 m ρ c (Proc.devRef .tc main_arg7) = (m ((c : Thread nD τ).loc main_arg7)) := by
  show StableHlo.after hostOps1_1 (StableHlo.after hostOps1 (W4 m ρ c)) (Proc.devRef .tc main_arg7) = _
  after_results
  exact W4_arg7 m ρ c
theorem W6_arg8 : W6 m ρ c (Proc.devRef .tc main_arg8) = (m ((c : Thread nD τ).loc main_arg8)) := by
  show StableHlo.after hostOps1_1 (StableHlo.after hostOps1 (W4 m ρ c)) (Proc.devRef .tc main_arg8) = _
  after_results
  exact W4_arg8 m ρ c

/-! ## Leaving launch 1 -/

theorem W7_v33 : W7 m ρ c (Proc.devRef .tc main_v33) = hid1 (m ((c : Thread nD τ).loc main_arg0)) (m ((c : Thread nD τ).loc main_arg1)) (m ((c : Thread nD τ).loc main_arg3)) (m ((c : Thread nD τ).loc main_arg4)) (m ((c : Thread nD τ).loc main_arg5)) := by
  have e0 : V6 m ρ c main_v32 = lay1 (m ((c : Thread nD τ).loc main_arg0)) (m ((c : Thread nD τ).loc main_arg1)) (m ((c : Thread nD τ).loc main_arg3)) (m ((c : Thread nD τ).loc main_arg4)) := W6_v32 m ρ c
  have e1 : V6 m ρ c main_arg5 = (m ((c : Thread nD τ).loc main_arg5)) := W6_arg5 m ρ c
  have e2 : V6 m ρ c main_v15 = dinvCol (m ((c : Thread nD τ).loc main_arg1)) := W6_v15 m ρ c
  have h := (W7_arr m ρ c 3).trans (Region1.final (V6 m ρ) c)
  rw [e0, e1, e2] at h
  exact h
theorem W7_v15 : W7 m ρ c (Proc.devRef .tc main_v15) = dinvCol (m ((c : Thread nD τ).loc main_arg1)) := by
  exact ((W7_arr m ρ c 2).trans (((dat1 (V6 m ρ) c).arrAt_in 2 rfl _).trans (A_eq1 (V6 m ρ) c 2))).trans (W6_v15 m ρ c)
theorem W7_v5 : W7 m ρ c (Proc.devRef .tc main_v5) = srcFull (m ((c : Thread nD τ).loc main_arg1)) := by
  exact (W7_of_ne m ρ c main_v5 (by decide)).trans (W6_v5 m ρ c)
theorem W7_v6 : W7 m ρ c (Proc.devRef .tc main_v6) = dstFull (m ((c : Thread nD τ).loc main_arg1)) := by
  exact (W7_of_ne m ρ c main_v6 (by decide)).trans (W6_v6 m ρ c)
theorem W7_arg2 : W7 m ρ c (Proc.devRef .tc main_arg2) = (m ((c : Thread nD τ).loc main_arg2)) := by
  exact (W7_of_ne m ρ c main_arg2 (by decide)).trans (W6_arg2 m ρ c)
theorem W7_arg6 : W7 m ρ c (Proc.devRef .tc main_arg6) = (m ((c : Thread nD τ).loc main_arg6)) := by
  exact (W7_of_ne m ρ c main_arg6 (by decide)).trans (W6_arg6 m ρ c)
theorem W7_arg7 : W7 m ρ c (Proc.devRef .tc main_arg7) = (m ((c : Thread nD τ).loc main_arg7)) := by
  exact (W7_of_ne m ρ c main_arg7 (by decide)).trans (W6_arg7 m ρ c)
theorem W7_arg8 : W7 m ρ c (Proc.devRef .tc main_arg8) = (m ((c : Thread nD τ).loc main_arg8)) := by
  exact (W7_of_ne m ρ c main_arg8 (by decide)).trans (W6_arg8 m ρ c)

/-! ## The second layer's tail and rectifier -/

theorem W9_v49 : W9 m ρ c (Proc.devRef .tc main_v49) = lay2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps2_1 (StableHlo.after hostOps2 (W7 m ρ c)) (Proc.devRef .tc main_v49) = _
  after_results_simp
  rw [W7_v33 m ρ c, W7_v5 m ρ c, W7_v6 m ρ c, W7_v15 m ρ c, W7_arg6 m ρ c]
  rfl
theorem W9_v5 : W9 m ρ c (Proc.devRef .tc main_v5) = srcFull (m ((c : Thread nD τ).loc main_arg1)) := by
  show StableHlo.after hostOps2_1 (StableHlo.after hostOps2 (W7 m ρ c)) (Proc.devRef .tc main_v5) = _
  after_results
  exact W7_v5 m ρ c
theorem W9_v6 : W9 m ρ c (Proc.devRef .tc main_v6) = dstFull (m ((c : Thread nD τ).loc main_arg1)) := by
  show StableHlo.after hostOps2_1 (StableHlo.after hostOps2 (W7 m ρ c)) (Proc.devRef .tc main_v6) = _
  after_results
  exact W7_v6 m ρ c
theorem W9_v15 : W9 m ρ c (Proc.devRef .tc main_v15) = dinvCol (m ((c : Thread nD τ).loc main_arg1)) := by
  show StableHlo.after hostOps2_1 (StableHlo.after hostOps2 (W7 m ρ c)) (Proc.devRef .tc main_v15) = _
  after_results
  exact W7_v15 m ρ c
theorem W9_arg2 : W9 m ρ c (Proc.devRef .tc main_arg2) = (m ((c : Thread nD τ).loc main_arg2)) := by
  show StableHlo.after hostOps2_1 (StableHlo.after hostOps2 (W7 m ρ c)) (Proc.devRef .tc main_arg2) = _
  after_results
  exact W7_arg2 m ρ c
theorem W9_arg7 : W9 m ρ c (Proc.devRef .tc main_arg7) = (m ((c : Thread nD τ).loc main_arg7)) := by
  show StableHlo.after hostOps2_1 (StableHlo.after hostOps2 (W7 m ρ c)) (Proc.devRef .tc main_arg7) = _
  after_results
  exact W7_arg7 m ρ c
theorem W9_arg8 : W9 m ρ c (Proc.devRef .tc main_arg8) = (m ((c : Thread nD τ).loc main_arg8)) := by
  show StableHlo.after hostOps2_1 (StableHlo.after hostOps2 (W7 m ρ c)) (Proc.devRef .tc main_arg8) = _
  after_results
  exact W7_arg8 m ρ c

/-! ## Leaving launch 2 -/

theorem W10_v50 : W10 m ρ c (Proc.devRef .tc main_v50) = hid2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  have e0 : V9 m ρ c main_v49 = lay2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := W9_v49 m ρ c
  have e1 : V9 m ρ c main_arg7 = (m ((c : Thread nD τ).loc main_arg7)) := W9_arg7 m ρ c
  have e2 : V9 m ρ c main_v15 = dinvCol (m ((c : Thread nD τ).loc main_arg1)) := W9_v15 m ρ c
  have h := (W10_arr m ρ c 3).trans (Region2.final (V9 m ρ) c)
  rw [e0, e1, e2] at h
  exact h
theorem W10_v15 : W10 m ρ c (Proc.devRef .tc main_v15) = dinvCol (m ((c : Thread nD τ).loc main_arg1)) := by
  exact ((W10_arr m ρ c 2).trans (((dat2 (V9 m ρ) c).arrAt_in 2 rfl _).trans (A_eq2 (V9 m ρ) c 2))).trans (W9_v15 m ρ c)
theorem W10_v5 : W10 m ρ c (Proc.devRef .tc main_v5) = srcFull (m ((c : Thread nD τ).loc main_arg1)) := by
  exact (W10_of_ne m ρ c main_v5 (by decide)).trans (W9_v5 m ρ c)
theorem W10_v6 : W10 m ρ c (Proc.devRef .tc main_v6) = dstFull (m ((c : Thread nD τ).loc main_arg1)) := by
  exact (W10_of_ne m ρ c main_v6 (by decide)).trans (W9_v6 m ρ c)
theorem W10_arg2 : W10 m ρ c (Proc.devRef .tc main_arg2) = (m ((c : Thread nD τ).loc main_arg2)) := by
  exact (W10_of_ne m ρ c main_arg2 (by decide)).trans (W9_arg2 m ρ c)
theorem W10_arg8 : W10 m ρ c (Proc.devRef .tc main_arg8) = (m ((c : Thread nD τ).loc main_arg8)) := by
  exact (W10_of_ne m ρ c main_arg8 (by decide)).trans (W9_arg8 m ρ c)

/-! ## The last layer's tail and the pair scores -/

theorem W11_v85 : W11 m ρ c (Proc.devRef .tc main_v85) = scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W10 m ρ c) (Proc.devRef .tc main_v85) = _
  after_results_simp
  rw [W10_v50 m ρ c, W10_v5 m ρ c, W10_v6 m ρ c, W10_v15 m ρ c, W10_arg8 m ρ c, W10_arg2 m ρ c]
  rfl

end Cert.KernelIdeal.Chain

end
-- ==== Proof.RefTerms.lean ====
/-
  The same pieces for the reference program: the edge endpoints with the self-loops appended, the in-degree and its
  inverse square root, the row gather and the accumulating scatter, the bias, the rectifier and the pair scores. Here
  the per-node factors are multiplied per edge, dinv[src]·dinv[dst], before the segment sum.
-/
import proofs.«118284_j48473000903025_2_alg».proof.ReferenceIdeal
import proofs.«118284_j48473000903025_2_alg».proof.Proof.Gen.ReferenceIdeal

noncomputable section

namespace Cert.ReferenceIdeal.Terms

open Idealize.ShloMosaic Cert.ReferenceIdeal Cert.ReferenceIdeal.Gen

variable {F : FTy → Type} [FloatOps F]

/-- The source row of the edge list followed by the node numbers 0 … n − 1: every node also sends to itself. -/
def srcFull (x1 : (⟨S2x320000, .i32⟩ : BufTy).Contents (Elt F)) : (⟨S370000, .i32⟩ : BufTy).Contents (Elt F) :=
  concatenate S370000 0 [⟨S320000, shapeCast _ (extractStridedSlice S1x320000 ![0, 0] x1 slices_S2x320000_S1x320000_0_0) shapeCasts_S1x320000_S320000⟩, ⟨S50000, iotaInDim S50000 32 0⟩] concatenates_S320000_S50000_S370000_d0

/-- The destination row of the edge list followed by the node numbers 0 … n − 1. -/
def dstFull (x1 : (⟨S2x320000, .i32⟩ : BufTy).Contents (Elt F)) : (⟨S370000, .i32⟩ : BufTy).Contents (Elt F) :=
  concatenate S370000 0 [⟨S320000, shapeCast _ (extractStridedSlice S1x320000 ![1, 0] x1 slices_S2x320000_S1x320000_1_0) shapeCasts_S1x320000_S320000⟩, ⟨S50000, iotaInDim S50000 32 0⟩] concatenates_S320000_S50000_S370000_d0

/-- A list of edge endpoints as a column of row numbers, as the scatter takes it: not wrapped. -/
def rawCol (v : (⟨S370000, .i32⟩ : BufTy).Contents (Elt F)) : (⟨S370000x1, .i32⟩ : BufTy).Contents (Elt F) :=
  broadcastInDim S370000x1 ![0] bcast_S370000_S370000x1_0 v

/-- The same column as a gather takes it: a negative number wrapped by adding n. -/
def wrapCol (v : (⟨S370000, .i32⟩ : BufTy).Contents (Elt F)) : (⟨S370000x1, .i32⟩ : BufTy).Contents (Elt F) :=
  broadcastInDim S370000x1 ![0] bcast_S370000_S370000x1_0 (select (cmpi .slt v (broadcastInDim S370000 ![] bcast_S_S370000 (constantI S_ 32 0#32))) (addi v (broadcastInDim S370000 ![] bcast_S_S370000 (constantI S_ 32 50000#32))) v)

/-- The in-degree of every node, self-loop included: ones added up at the destinations. -/
def deg (x1 : (⟨S2x320000, .i32⟩ : BufTy).Contents (Elt F)) : (⟨S50000, .f32⟩ : BufTy).Contents (Elt F) :=
  Host.scatterAdd scatter_S50000_S370000x1_S370000_n_0_0_1 (broadcastInDim S50000 ![] bcast_S_S50000 (constant S_ .f32 0x00000000#32)) (rawCol (dstFull x1)) (broadcastInDim S370000 ![] bcast_S_S370000 (constant S_ .f32 0x3F800000#32))

/-- deg^(−1/2) where the degree is positive, 0 elsewhere. -/
def dinv (x1 : (⟨S2x320000, .i32⟩ : BufTy).Contents (Elt F)) : (⟨S50000, .f32⟩ : BufTy).Contents (Elt F) :=
  select (cmpf .ogt (deg x1) (broadcastInDim S50000 ![] bcast_S_S50000 (constant S_ .f32 0x00000000#32))) (Host.rsqrt (deg x1)) (broadcastInDim S50000 ![] bcast_S_S50000 (id (constant S_ .f32 0x00000000#32)))

/-- The all-zero node table a segment sum starts from. -/
def zeros2 : (⟨S50000x128, .f32⟩ : BufTy).Contents (Elt F) :=
  broadcastInDim S50000x128 ![] bcast_S_S50000x128 (constant S_ .f32 0x00000000#32)

/-- A bias vector repeated down the rows of the node table. -/
def biasRows (b : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 b)

/-- max(x, 0), entry by entry. -/
def relu (x : (⟨S50000x128, .f32⟩ : BufTy).Contents (Elt F)) : (⟨S50000x128, .f32⟩ : BufTy).Contents (Elt F) :=
  maximumf x (broadcastInDim S50000x128 ![] bcast_S_S50000x128 (constant S_ .f32 0x00000000#32))

/-- Row r of the list of candidate pairs as a list of node numbers. -/
def pairRow0 (x2 : (⟨S2x200000, .i32⟩ : BufTy).Contents (Elt F)) : (⟨S200000, .i32⟩ : BufTy).Contents (Elt F) :=
  shapeCast _ (extractStridedSlice S1x200000 ![0, 0] x2 slices_S2x200000_S1x200000_0_0) shapeCasts_S1x200000_S200000

def pairRow1 (x2 : (⟨S2x200000, .i32⟩ : BufTy).Contents (Elt F)) : (⟨S200000, .i32⟩ : BufTy).Contents (Elt F) :=
  shapeCast _ (extractStridedSlice S1x200000 ![1, 0] x2 slices_S2x200000_S1x200000_1_0) shapeCasts_S1x200000_S200000

/-- A list of candidate endpoints as a wrapped column of node numbers. -/
def pairCol (v : (⟨S200000, .i32⟩ : BufTy).Contents (Elt F)) : (⟨S200000x1, .i32⟩ : BufTy).Contents (Elt F) :=
  broadcastInDim S200000x1 ![0] bcast_S200000_S200000x1_0 (select (cmpi .slt v (broadcastInDim S200000 ![] bcast_S_S200000 (constantI S_ 32 0#32))) (addi v (broadcastInDim S200000 ![] bcast_S_S200000 (constantI S_ 32 50000#32))) v)

/-- The score of every candidate pair: the inner product of the two nodes' rows of the last layer's output. -/
def decode (z : (⟨S50000x128, .f32⟩ : BufTy).Contents (Elt F)) (x2 : (⟨S2x200000, .i32⟩ : BufTy).Contents (Elt F)) : (⟨S200000, .f32⟩ : BufTy).Contents (Elt F) :=
  Host.reduceAdd (mulf (Host.gather gather_S50000x128_S200000x1_S200000x128_1_0_n_n_0_1_1128 z (pairCol (pairRow0 x2))) (Host.gather gather_S50000x128_S200000x1_S200000x128_1_0_n_n_0_1_1128 z (pairCol (pairRow1 x2)))) (constant S_ .f32 0x00000000#32) reducesTo_S200000x128_S200000_d1 h_S_

/-- The weight of every edge, over its pieces: the per-node factor `cv` at the wrapped source times `cv` at the wrapped
    destination. -/
def edgeNormG (cv : (⟨S50000, .f32⟩ : BufTy).Contents (Elt F)) (s d : (⟨S370000, .i32⟩ : BufTy).Contents (Elt F)) : (⟨S370000, .f32⟩ : BufTy).Contents (Elt F) :=
  mulf (Host.gather gather_S50000_S370000x1_S370000_n_0_n_n_0_1_1 cv (wrapCol s)) (Host.gather gather_S50000_S370000x1_S370000_n_0_n_n_0_1_1 cv (wrapCol d))

/-- One layer after the product h = x·W, over its pieces: rows of h gathered at the wrapped sources `s`, each scaled by
    its edge's weight, added up at the destinations `d`, plus the bias. -/
def tailRG (h : (⟨S50000x128, .f32⟩ : BufTy).Contents (Elt F)) (cv : (⟨S50000, .f32⟩ : BufTy).Contents (Elt F)) (s d : (⟨S370000, .i32⟩ : BufTy).Contents (Elt F)) (b : (⟨S128, .f32⟩ : BufTy).Contents (Elt F)) : (⟨S50000x128, .f32⟩ : BufTy).Contents (Elt F) :=
  addf (Host.scatterAdd scatter_S50000x128_S370000x1_S370000x128_1_0_0_1 (broadcastInDim S50000x128 ![] bcast_S_S50000x128 (constant S_ .f32 0x00000000#32)) (broadcastInDim S370000x1 ![0] bcast_S370000_S370000x1_0 d) (mulf (Host.gather gather_S50000x128_S370000x1_S370000x128_1_0_n_n_0_1_1128 h (wrapCol s)) (broadcastInDim S370000x128 ![0, 1] bcast_S370000x1_S370000x128_0_1 (broadcastInDim S370000x1 ![0] bcast_S370000_S370000x1_0 (edgeNormG cv s d))))) (broadcastInDim S50000x128 ![0, 1] bcast_S1x128_S50000x128_0_1 (broadcastInDim S1x128 ![1] bcast_S128_S1x128_1 b))

/-- The same with the graph's own pieces: the endpoints and dinv computed from the edge list. -/
def tailR (h : (⟨S50000x128, .f32⟩ : BufTy).Contents (Elt F)) (x1 : (⟨S2x320000, .i32⟩ : BufTy).Contents (Elt F)) (b : (⟨S128, .f32⟩ : BufTy).Contents (Elt F)) : (⟨S50000x128, .f32⟩ : BufTy).Contents (Elt F) :=
  tailRG h (dinv x1) (srcFull x1) (dstFull x1) b

/-- The product of the node table with a weight matrix, for the first layer (256 input features) and the later ones. -/
def dot256 (x : (⟨S50000x256, .f32⟩ : BufTy).Contents (Elt F)) (w : (⟨S256x128, .f32⟩ : BufTy).Contents (Elt F)) : (⟨S50000x128, .f32⟩ : BufTy).Contents (Elt F) :=
  Host.dotGeneral dot_S50000x256_S256x128_S50000x128_1_0_0_1_n_n none x w

def dot128 (x : (⟨S50000x128, .f32⟩ : BufTy).Contents (Elt F)) (w : (⟨S128x128, .f32⟩ : BufTy).Contents (Elt F)) : (⟨S50000x128, .f32⟩ : BufTy).Contents (Elt F) :=
  Host.dotGeneral dot_S50000x128_S128x128_S50000x128_1_0_0_1_n_n none x w

end Cert.ReferenceIdeal.Terms

end
-- ==== Proof.RefChain.lean ====
/-
  The reference program's result as a composition of its pieces: three graph-convolution layers, each the node table
  times a weight matrix followed by the weighted segment sum and the bias, a rectifier after the first two, and the
  pair scores of the last layer's output. The run's result term is this composition: the same operations in the same
  order, so the two agree by unfolding the names.
-/
import proofs.«118284_j48473000903025_2_alg».proof.Proof.RefRunPatched
import proofs.«118284_j48473000903025_2_alg».proof.Proof.RefTerms

set_option maxRecDepth 16384

noncomputable section

namespace Cert.ReferenceIdeal.Chain

open Cert.ReferenceIdeal Cert.ReferenceIdeal.Gen Cert.ReferenceIdeal.Terms Idealize.ShloMosaic Idealize.ShloMosaic.TcCoe Idealize.SL.Sem

variable {F : FTy → Type} [FloatOps F]

/-- The pair scores as the reference computes them from the nine arguments. -/
def scores (x0 : (⟨S50000x256, .f32⟩ : BufTy).Contents (Elt F)) (x1 : (⟨S2x320000, .i32⟩ : BufTy).Contents (Elt F)) (x2 : (⟨S2x200000, .i32⟩ : BufTy).Contents (Elt F)) (x3 : (⟨S256x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) : (⟨S200000, .f32⟩ : BufTy).Contents (Elt F) :=
  decode (tailR (dot128 (relu (tailR (dot128 (relu (tailR (dot256 x0 x3) x1 x4)) x5) x1 x6)) x7) x1 x8) x2

/-- The run's result term is that composition of the launch contents of the arguments. -/
theorem res_eq (m : (ℓ : Loc nD τ sig) → Buf (Elt F) ℓ) (c : Dev nD) :
    Cert.ReferenceIdeal.ValueP.res_main_v154 m c = scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.ValueP.res_main_v154
  rfl

end Cert.ReferenceIdeal.Chain

end
-- ==== Proof.LibRowOps.lean ====
/-
  Rows picked by an integer array: the two StableHLO forms that `x[idx]` and `segment_sum(v, idx)` lower to when
  `idx` is a flat list of M row numbers laid out as an [M, 1] array of start indices.

  * A GATHER of whole rows: of a vector [N] (result [M]) and of a matrix [N, C] (result [M, C]). Result row `e` is
    the operand's row number `idx[e, 0]`, the number read as a signed integer and clamped into [0, N − 1].
  * An accumulating SCATTER of rows into a matrix [N, C] from updates [M, C]: update element (e, f) is added to
    operand element (idx[e, 0], f), the number read signed and NOT clamped; an update whose row number falls outside
    [0, N) is dropped. At the exact reading of floats the result element is the operand element plus the finite sum of
    the update elements that land on it, so multiplying every landing update by a number that depends only on the
    landing row is multiplying the sum by it — provided that number is a nonnegative real, which is what lets a product
    distribute over a sum of extended reals.
-/
import Idealize.ShloMosaic.PureOps.Ideal
import Idealize.ShloMosaic.Lib.ValueIdx

noncomputable section

open scoped BigOperators

namespace Cert.Lib.RowOps

open Idealize.ShloMosaic Idealize.ShloMosaic.ValueIdx

/-! ## The dimension numbers -/

/-- Gather of entries of a vector [N] at start indices [M, 1]: the one operand axis collapsed, the start index's
    one component naming it, the index vector on axis 1. -/
abbrev gatherRows1 (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Gather of whole rows of a matrix [N, C] at start indices [M, 1]: the row axis collapsed and named by the start
    index, the column axis an offset axis of full extent. -/
abbrev gatherRows2 (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Scatter of rows [M, C] into a matrix [N, C] at scatter indices [M, 1]: the row axis inserted and named by the
    index, the column axis a window axis. -/
abbrev scatterRows2 (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- The place of row number `e` in the [M, 1] array of indices. -/
abbrev at0 {M : Nat} (e : Fin M) : (⟨2, ![M, 1]⟩ : Shape).Idx := ix2 e (0 : Fin 1)

/-! ## The gathers read at an index -/

/-- Entry `e` of the gathered vector is the operand at the start index read signed and clamped into [0, N − 1]. -/
theorem gatherRows1_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gatherRows1 N M wf) x idx (ix1 e)
      = x (ix1 ⟨min (idx (at0 e)).toInt.toNat (N - 1), by omega⟩) := by
  -- the operand index has one coordinate: the clamped start, with no batching and no offset part
  unfold Host.gather
  congr 1
  funext a
  obtain rfl : a = 0 := Subsingleton.elim _ _
  refine Fin.ext ?_
  show (gatherRows1 N M wf).start (ix1 e) idx 0 + (gatherRows1 N M wf).batchCoord (ix1 e) 0
    + (gatherRows1 N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherRows1 N M wf).startIndexMap from List.mem_singleton.mpr rfl)]
  have hsi : (gatherRows1 N M wf).siIdx (ix1 e) ⟨List.idxOf (0 : Fin 1) (gatherRows1 N M wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

/-- Element (e, f) of the gathered matrix is the operand's element in column `f` of the row the start index names,
    read signed and clamped into [0, N − 1]. -/
theorem gatherRows2_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (f : Fin C) :
    Host.gather (gatherRows2 N M C wf) x idx (ix2 e f)
      = x (ix2 ⟨min (idx (at0 e)).toInt.toNat (N - 1), by omega⟩ f) := by
  unfold Host.gather
  congr 1
  funext a
  refine Fin.ext ?_
  match a with
  -- row axis: the clamped start alone; column axis: start 0 plus the offset coordinate f
  | ⟨0, _⟩ =>
    show (gatherRows2 N M C wf).start (ix2 e f) idx 0 + (gatherRows2 N M C wf).batchCoord (ix2 e f) 0
      + (gatherRows2 N M C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows2 N M C wf).startIndexMap from List.mem_singleton.mpr rfl)]
    have hsi : (gatherRows2 N M C wf).siIdx (ix2 e f) ⟨List.idxOf (0 : Fin 2) (gatherRows2 N M C wf).startIndexMap,
        List.idxOf_lt_length_iff.2 (List.mem_singleton.mpr rfl)⟩ = at0 e := by
      funext b; refine Fin.ext ?_
      match b with
      | ⟨0, _⟩ => rfl
      | ⟨1, _⟩ => rfl
    rw [hsi]
    rfl
  | ⟨1, _⟩ =>
    show (gatherRows2 N M C wf).start (ix2 e f) idx 1 + (gatherRows2 N M C wf).batchCoord (ix2 e f) 1
      + (gatherRows2 N M C wf).offCoord (ix2 e f) 1 = f.val
    rw [GatherDims.batchCoord_eq_zero _ _ _ List.not_mem_nil]
    unfold GatherDims.start
    rw [dif_neg (show (1 : Fin 2) ∉ (gatherRows2 N M C wf).startIndexMap from
      (by decide : (1 : Fin 2) ∉ ([0] : List (Fin 2))))]
    simp only [Nat.add_zero, Nat.zero_add]
    unfold GatherDims.offCoord
    rw [dif_pos (show (1 : Fin 2) ∈ (gatherRows2 N M C wf).sKept from
      (GatherDims.mem_sKept _ _).mpr ⟨(by decide : (1 : Fin 2) ∉ ([0] : List (Fin 2))), List.not_mem_nil⟩)]
    rfl

/-! ## Where an update lands -/

/-- Update element (e, f) lands on operand element (i, f') exactly when the index of row `e`, read signed, is `i`
    and the columns agree. -/
theorem scatterRows2_lands {N M C w : Nat}
    (wf : ScatterDims.WF ⟨2, ![N, C]⟩ ⟨2, ![M, 1]⟩ ⟨2, ![M, C]⟩ [1] [0] [0] 1)
    (idx : IVec ⟨2, ![M, 1]⟩ w) (e : Fin M) (f : Fin C) (i : Fin N) (f' : Fin C) :
    (scatterRows2 N M C wf).resultIdx? (ix2 e f) idx = some (ix2 i f')
      ↔ (idx (at0 e)).toInt = (i.val : Int) ∧ f = f' := by
  -- on the row axis: start = the signed index, window = 0; on the column axis: start = 0, window = f
  have h00 : (scatterRows2 N M C wf).start (ix2 e f) idx 0 = (idx (at0 e)).toInt := by
    unfold ScatterDims.start
    rw [dif_pos (show (0 : Fin 2) ∈ (scatterRows2 N M C wf).scatterDimsToOperandDims from List.mem_singleton.mpr rfl)]
    have hsi : (scatterRows2 N M C wf).siIdx (ix2 e f) ⟨List.idxOf (0 : Fin 2) (scatterRows2 N M C wf).scatterDimsToOperandDims,
        List.idxOf_lt_length_iff.2 (List.mem_singleton.mpr rfl)⟩ = at0 e := by
      funext b; refine Fin.ext ?_
      match b with
      | ⟨0, _⟩ => rfl
      | ⟨1, _⟩ => rfl
    rw [hsi]
  have hw0 : (scatterRows2 N M C wf).window (ix2 e f) 0 = 0 := by
    unfold ScatterDims.window
    rw [dif_neg (show (0 : Fin 2) ∉ (scatterRows2 N M C wf).sKept from
      (by decide : (0 : Fin 2) ∉ (List.finRange 2).filter (fun a => a ∉ ([0] : List (Fin 2)))))]
  have hs1 : (scatterRows2 N M C wf).start (ix2 e f) idx 1 = 0 := by
    unfold ScatterDims.start
    rw [dif_neg (show (1 : Fin 2) ∉ (scatterRows2 N M C wf).scatterDimsToOperandDims from
      (by decide : (1 : Fin 2) ∉ ([0] : List (Fin 2))))]
  have hw1 : (scatterRows2 N M C wf).window (ix2 e f) 1 = f.val := by
    unfold ScatterDims.window
    rw [dif_pos (show (1 : Fin 2) ∈ (scatterRows2 N M C wf).sKept from
      (by decide : (1 : Fin 2) ∈ (List.finRange 2).filter (fun a => a ∉ ([0] : List (Fin 2)))))]
    rfl
  unfold ScatterDims.resultIdx?
  split
  · rename_i h
    rw [Option.some.injEq]
    constructor
    · intro hg
      have g0 : ((scatterRows2 N M C wf).start (ix2 e f) idx 0 + ((scatterRows2 N M C wf).window (ix2 e f) 0 : ℕ)).toNat = i.val := congrArg Fin.val (congrFun hg 0)
      have g1 : ((scatterRows2 N M C wf).start (ix2 e f) idx 1 + ((scatterRows2 N M C wf).window (ix2 e f) 1 : ℕ)).toNat = f'.val := congrArg Fin.val (congrFun hg 1)
      have k0 := (h 0).1
      rw [h00, hw0] at g0 k0
      rw [hs1, hw1] at g1
      exact ⟨by omega, Fin.ext (by omega)⟩
    · rintro ⟨hi, rfl⟩
      funext a
      refine Fin.ext ?_
      match a with
      | ⟨0, _⟩ =>
        show ((scatterRows2 N M C wf).start (ix2 e f) idx 0 + ((scatterRows2 N M C wf).window (ix2 e f) 0 : ℕ)).toNat = i.val
        rw [h00, hw0]; omega
      | ⟨1, _⟩ =>
        show ((scatterRows2 N M C wf).start (ix2 e f) idx 1 + ((scatterRows2 N M C wf).window (ix2 e f) 1 : ℕ)).toNat = f.val
        rw [hs1, hw1]; omega
  · rename_i h
    constructor
    · intro hg; cases hg
    · rintro ⟨hi, rfl⟩
      exfalso; apply h
      intro a
      match a with
      | ⟨0, _⟩ =>
        show 0 ≤ (scatterRows2 N M C wf).start (ix2 e f) idx 0 + ((scatterRows2 N M C wf).window (ix2 e f) 0 : ℕ) ∧ (scatterRows2 N M C wf).start (ix2 e f) idx 0 + ((scatterRows2 N M C wf).window (ix2 e f) 0 : ℕ) < (N : ℤ)
        rw [h00, hw0]; have := i.isLt; omega
      | ⟨1, _⟩ =>
        show 0 ≤ (scatterRows2 N M C wf).start (ix2 e f) idx 1 + ((scatterRows2 N M C wf).window (ix2 e f) 1 : ℕ) ∧ (scatterRows2 N M C wf).start (ix2 e f) idx 1 + ((scatterRows2 N M C wf).window (ix2 e f) 1 : ℕ) < (C : ℤ)
        rw [hs1, hw1]; have := f.isLt; omega

/-! ## Scaling the rows that land -/

/-- A finite sum of extended reals times a nonnegative real is the sum of the products. -/
theorem sum_mul_of_nonneg_ne_top {ι : Type} (s : Finset ι) (a : ι → EReal) {c : EReal} (h0 : 0 ≤ c) (ht : c ≠ ⊤) :
    (∑ j ∈ s, a j) * c = ∑ j ∈ s, a j * c := by
  classical
  induction s using Finset.induction_on with
  | empty => rw [Finset.sum_empty, Finset.sum_empty, zero_mul]
  | insert j s hj ih =>
    rw [Finset.sum_insert hj, Finset.sum_insert hj, EReal.right_distrib_of_nonneg_of_ne_top h0 ht, ih]

/-- THE LAW. Scatter-add rows into a zero matrix and then scale result row `i` by `c i`; or scale every update
    row by `c` gathered at the (wrapped, clamped) index of the row it lands on, and then scatter-add: the same matrix,
    when every `c i` is a nonnegative real and the gather's indices `idxG` agree with the scatter's `idxS` wherever
    the latter is not negative (a gather clamps and a scatter drops, so only rows that land matter). -/
theorem scatterRows2_scale {N M C : Nat} (hN : 0 < N)
    (wfS : ScatterDims.WF ⟨2, ![N, C]⟩ ⟨2, ![M, 1]⟩ ⟨2, ![M, C]⟩ [1] [0] [0] 1)
    (wfG : GatherDims.WF ⟨1, ![N]⟩ ⟨2, ![M, 1]⟩ ⟨1, ![M]⟩ [] [0] [] [0] [] 1 ![1])
    (c : (⟨1, ![N]⟩ : Shape).Idx → EReal) (hc : ∀ i, 0 ≤ c i ∧ c i ≠ ⊤)
    (idxS idxG : IVec ⟨2, ![M, 1]⟩ 32)
    (hidx : ∀ e : Fin M, 0 ≤ (idxS (at0 e)).toInt → idxG (at0 e) = idxS (at0 e))
    (a : (⟨2, ![M, C]⟩ : Shape).Idx → EReal) (i : (⟨2, ![N, C]⟩ : Shape).Idx) :
    Ideal.hostScatterAdd (scatterRows2 N M C wfS) (fun _ => 0) idxS a i * c (ix1 (i 0))
      = Ideal.hostScatterAdd (scatterRows2 N M C wfS) (fun _ => 0) idxS
          (fun j => a j * Host.gather (gatherRows1 N M wfG) c idxG (ix1 (j 0))) i := by
  obtain ⟨i0, f', rfl⟩ : ∃ (i0 : Fin N) (f' : Fin C), i = ix2 i0 f' := ⟨i 0, i 1, eq_ix2 i⟩
  unfold Ideal.hostScatterAdd
  simp only [zero_add]
  rw [sum_mul_of_nonneg_ne_top _ _ (hc _).1 (hc _).2]
  -- term by term: an update that lands on row i0 has signed index i0, so its gathered factor is c i0
  refine Finset.sum_congr rfl ?_
  intro j hj
  obtain ⟨e, f, rfl⟩ : ∃ (e : Fin M) (f : Fin C), j = ix2 e f := ⟨j 0, j 1, eq_ix2 j⟩
  have hl := (scatterRows2_lands wfS idxS e f i0 f').mp (Finset.mem_filter.mp hj).2
  have hnn : 0 ≤ (idxS (at0 e)).toInt := by rw [hl.1]; exact Int.natCast_nonneg _
  have hG := hidx e hnn
  have hi0 : (⟨min (idxG (at0 e)).toInt.toNat (N - 1), by omega⟩ : Fin N) = i0 :=
    Fin.ext (by
      have h1 := i0.isLt
      have h2 := hl.1
      show min (idxG (at0 e)).toInt.toNat (N - 1) = i0.val
      rw [hG]; omega)
  show a (ix2 e f) * c (ix1 i0) = a (ix2 e f) * Host.gather (gatherRows1 N M wfG) c idxG (ix1 e)
  rw [gatherRows1_apply hN wfG c idxG e, hi0]

end Cert.Lib.RowOps

end
-- ==== Proof.LibGcnScale.lean ====
/-
  The one algebraic step of a graph-convolution layer. Write c for the per-node factor deg^(−1/2), h for the node
  table x·W, s(e) and d(e) for the endpoints of edge e. One program sums, at node v,
      Σ_{e : d(e) = v}  h[s(e)] · (c[s(e)] · c[d(e)]),
  the other scales the rows first and the sums afterwards,
      c[v] · Σ_{e : d(e) = v}  (h · c)[s(e)].
  An edge that lands on v has d(e) = v, so the factor c[d(e)] is the constant c[v] on the sum's terms; a constant
  nonnegative REAL factor moves across a finite sum of extended reals (at an infinite or negative factor it need
  not). Stated over the two lowered forms: a gather clamps its (wrapped) row number, a scatter drops a row number
  outside the table, and the two agree on every edge that lands.
-/
import Idealize.ShloMosaic.PureOps.Ideal
import Idealize.ShloMosaic.Lib.ValueIdx
import proofs.«118284_j48473000903025_2_alg».proof.Proof.LibRowOps

noncomputable section

open scoped BigOperators

namespace Cert.Lib.GcnScale

open Idealize.ShloMosaic Idealize.ShloMosaic.ValueIdx Cert.Lib.RowOps

/-- Scale the rows by c, gather them at the sources, add them up at the destinations, scale row v of the sum by c v;
    or gather the unscaled rows, scale edge e's row by c at its source times c at its destination, and add up:
    the same table. `sW`, `dW` are the wrapped index columns the gathers read, `dRaw` the unwrapped one the
    scatter reads; on a nonnegative entry wrapping does nothing. -/
theorem scale_rows_then_sum {N M C : Nat} (hN : 0 < N)
    (wfG2 : GatherDims.WF ⟨2, ![N, C]⟩ ⟨2, ![M, 1]⟩ ⟨2, ![M, C]⟩ [1] [0] [] [0] [] 1 ![1, C])
    (wfG1 : GatherDims.WF ⟨1, ![N]⟩ ⟨2, ![M, 1]⟩ ⟨1, ![M]⟩ [] [0] [] [0] [] 1 ![1])
    (wfS : ScatterDims.WF ⟨2, ![N, C]⟩ ⟨2, ![M, 1]⟩ ⟨2, ![M, C]⟩ [1] [0] [0] 1)
    (h : (⟨2, ![N, C]⟩ : Shape).Idx → EReal) (c : (⟨1, ![N]⟩ : Shape).Idx → EReal) (hc : ∀ i, 0 ≤ c i ∧ c i ≠ ⊤)
    (sW dW dRaw : IVec ⟨2, ![M, 1]⟩ 32)
    (hidx : ∀ e : Fin M, 0 ≤ (dRaw (at0 e)).toInt → dW (at0 e) = dRaw (at0 e))
    (i : (⟨2, ![N, C]⟩ : Shape).Idx) :
    c (ix1 (i 0)) * Ideal.hostScatterAdd (scatterRows2 N M C wfS) (fun _ => 0) dRaw
        (Host.gather (gatherRows2 N M C wfG2) (fun r => h r * c (ix1 (r 0))) sW) i
      = Ideal.hostScatterAdd (scatterRows2 N M C wfS) (fun _ => 0) dRaw
          (fun j => Host.gather (gatherRows2 N M C wfG2) h sW j
            * (Host.gather (gatherRows1 N M wfG1) c sW (ix1 (j 0)) * Host.gather (gatherRows1 N M wfG1) c dW (ix1 (j 0)))) i := by
  rw [mul_comm (c (ix1 (i 0))), scatterRows2_scale hN wfS wfG1 c hc dRaw dW hidx]
  -- both sides are now one scatter-add; their updates agree edge by edge
  refine congrArg (fun a => Ideal.hostScatterAdd (scatterRows2 N M C wfS) (fun _ => 0) dRaw a i) (funext fun j => ?_)
  obtain ⟨e, f, rfl⟩ : ∃ (e : Fin M) (f : Fin C), j = ix2 e f := ⟨j 0, j 1, eq_ix2 j⟩
  show Host.gather (gatherRows2 N M C wfG2) (fun r => h r * c (ix1 (r 0))) sW (ix2 e f) * Host.gather (gatherRows1 N M wfG1) c dW (ix1 e)
    = Host.gather (gatherRows2 N M C wfG2) h sW (ix2 e f)
      * (Host.gather (gatherRows1 N M wfG1) c sW (ix1 e) * Host.gather (gatherRows1 N M wfG1) c dW (ix1 e))
  rw [gatherRows2_apply hN wfG2 _ sW e f, gatherRows2_apply hN wfG2 h sW e f, gatherRows1_apply hN wfG1 c sW e]
  exact mul_assoc _ _ _

end Cert.Lib.GcnScale

end
-- ==== Proof.LibGuardedRsqrt.lean ====
/-
  The per-node factor of the symmetric normalisation, deg^(−1/2) where deg > 0 and 0 elsewhere, is a nonnegative real
  whatever extended real the degree is: a positive real has a positive real inverse square root, +∞ has 0, and where
  the degree is not positive the factor is the constant 0. This is what lets the factor move across a sum.
-/
import Idealize.ShloMosaic.PureOps.Ideal
import Idealize.ShloMosaic.PureOps.Ideal.Laws

noncomputable section

namespace Cert.Lib.GuardedRsqrt

open Idealize.ShloMosaic

/-- `x > z ? rsqrt x : z` with z = 0 lies in [0, +∞). -/
theorem guarded_rsqrt_bounds (x z : EReal) (hz : z = 0) :
    0 ≤ Scalar.select (Ideal.cmp .ogt x z) (Ideal.rsqrt x) z ∧ Scalar.select (Ideal.cmp .ogt x z) (Ideal.rsqrt x) z ≠ ⊤ := by
  subst hz
  unfold Scalar.select Ideal.cmp
  by_cases h : (0 : EReal) < x
  · have h1 : BitVec.ofBool (decide ((0 : EReal) < x)) = 1 := by simp [h]
    simp only [h1, if_true]
    induction x using EReal.rec with
    | bot => exact absurd h (by simp)
    | top => exact ⟨le_of_eq Ideal.rsqrt_top.symm, by rw [Ideal.rsqrt_top]; exact EReal.zero_ne_top⟩
    | coe r =>
      have hr : 0 < r := by exact_mod_cast h
      rw [Ideal.rsqrt_coe, if_neg (not_lt.mpr hr.le), if_neg hr.ne']
      exact ⟨by exact_mod_cast (inv_nonneg.mpr (Real.sqrt_nonneg r)), EReal.coe_ne_top _⟩
  · have h0 : BitVec.ofBool (decide ((0 : EReal) < x)) ≠ 1 := by simp [h]
    simp only [h0, if_false]
    exact ⟨le_refl _, EReal.zero_ne_top⟩

end Cert.Lib.GuardedRsqrt

end
-- ==== Proof.RefProducts.lean ====
/-
  The reference's product of the node table with a weight matrix, read at an entry: entry (r, j) is the sum over k of
  x (r, k) · w (k, j). One statement for the first layer's 256 input features and one for the later layers' 128.
-/
import proofs.«118284_j48473000903025_2_alg».proof.Proof.RefTerms
import Idealize.ShloMosaic.Lib.ValueIdx
import Idealize.ShloMosaic.PureOps.Ideal.Laws

noncomputable section

open scoped BigOperators

namespace Cert.RefProducts

open Idealize.ShloMosaic Idealize.ShloMosaic.ValueIdx Cert.ReferenceIdeal.Gen

/-- The reference's product of the node table with a weight matrix (256 input features), at an entry: the plain sum. -/
theorem dot256_lhs_row (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 0).val = (i 0).val := by
  unfold DotDims.lhsIdx
  rw [dif_neg (show ¬(0 : Fin Cert.ReferenceIdeal.S50000x256.rank) ∈ Cert.ReferenceIdeal.dot_S50000x256_S256x128_S50000x128_1_0_0_1_n_n.lhsBatch by decide), dif_pos (show (0 : Fin Cert.ReferenceIdeal.S50000x256.rank) ∈ Cert.ReferenceIdeal.dot_S50000x256_S256x128_S50000x128_1_0_0_1_n_n.lhsNonContracting by decide)]
  rfl
theorem dot256_rhs_col (i : Cert.ReferenceIdeal.S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 1).val = (i 1).val := by
  unfold DotDims.rhsIdx
  rw [dif_neg (show ¬(1 : Fin Cert.ReferenceIdeal.S256x128.rank) ∈ Cert.ReferenceIdeal.dot_S50000x256_S256x128_S50000x128_1_0_0_1_n_n.rhsBatch by decide), dif_pos (show (1 : Fin Cert.ReferenceIdeal.S256x128.rank) ∈ Cert.ReferenceIdeal.dot_S50000x256_S256x128_S50000x128_1_0_0_1_n_n.rhsNonContracting by decide)]
  rfl
theorem dot256_apply (x : (⟨2, ![50000, 256]⟩ : Shape).Idx → EReal) (w : (⟨2, ![256, 128]⟩ : Shape).Idx → EReal) (i : (⟨2, ![50000, 128]⟩ : Shape).Idx) :
    Cert.ReferenceIdeal.Terms.dot256 (F := Ideal) x w i = ∑ k : Fin 256, x (ix2 (i 0) k) * w (ix2 k (i 1)) := by
  unfold Cert.ReferenceIdeal.Terms.dot256
  simp only [Host.dotGeneral]
  rw [Ideal.dotGeneral_apply, ← Equiv.sum_comp (contrEquiv1 Cert.ReferenceIdeal.dot_S50000x256_S256x128_S50000x128_1_0_0_1_n_n 256 rfl rfl).symm]
  refine Finset.sum_congr rfl fun k _ => ?_
  have hk := contrEquiv1_symm_val Cert.ReferenceIdeal.dot_S50000x256_S256x128_S50000x128_1_0_0_1_n_n 256 rfl rfl k
  have el : Cert.ReferenceIdeal.dot_S50000x256_S256x128_S50000x128_1_0_0_1_n_n.lhsIdx i ((contrEquiv1 Cert.ReferenceIdeal.dot_S50000x256_S256x128_S50000x128_1_0_0_1_n_n 256 rfl rfl).symm k) = ix2 (i 0) k := funext fun a => Fin.ext (by
    match a with
    | ⟨0, _⟩ => exact dot256_lhs_row _ _
    | ⟨1, _⟩ => exact (Cert.ReferenceIdeal.dot_S50000x256_S256x128_S50000x128_1_0_0_1_n_n.lhsIdx_val_of_single rfl i _).trans hk)
  have er : Cert.ReferenceIdeal.dot_S50000x256_S256x128_S50000x128_1_0_0_1_n_n.rhsIdx i ((contrEquiv1 Cert.ReferenceIdeal.dot_S50000x256_S256x128_S50000x128_1_0_0_1_n_n 256 rfl rfl).symm k) = ix2 k (i 1) := funext fun a => Fin.ext (by
    match a with
    | ⟨0, _⟩ => exact (Cert.ReferenceIdeal.dot_S50000x256_S256x128_S50000x128_1_0_0_1_n_n.rhsIdx_val_of_single rfl i _).trans hk
    | ⟨1, _⟩ => exact dot256_rhs_col _ _)
  rw [el, er]
  rfl

/-- The reference's product of the node table with a weight matrix (128 input features), at an entry: the plain sum. -/
theorem dot128_lhs_row (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem dot128_rhs_col (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl
theorem dot128_apply (x : (⟨2, ![50000, 128]⟩ : Shape).Idx → EReal) (w : (⟨2, ![128, 128]⟩ : Shape).Idx → EReal) (i : (⟨2, ![50000, 128]⟩ : Shape).Idx) :
    Cert.ReferenceIdeal.Terms.dot128 (F := Ideal) x w i = ∑ k : Fin 128, x (ix2 (i 0) k) * w (ix2 k (i 1)) := by
  unfold Cert.ReferenceIdeal.Terms.dot128
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i ((contrEquiv1 Cert.ReferenceIdeal.dot_S50000x128_S128x128_S50000x128_1_0_0_1_n_n 128 rfl rfl).symm k) = ix2 (i 0) k := funext fun a => Fin.ext (by
    match a with
    | ⟨0, _⟩ => exact dot128_lhs_row _ _
    | ⟨1, _⟩ => exact (Cert.ReferenceIdeal.dot_S50000x128_S128x128_S50000x128_1_0_0_1_n_n.lhsIdx_val_of_single rfl i _).trans hk)
  have er : Cert.ReferenceIdeal.dot_S50000x128_S128x128_S50000x128_1_0_0_1_n_n.rhsIdx i ((contrEquiv1 Cert.ReferenceIdeal.dot_S50000x128_S128x128_S50000x128_1_0_0_1_n_n 128 rfl rfl).symm k) = ix2 k (i 1) := funext fun a => Fin.ext (by
    match a with
    | ⟨0, _⟩ => exact (Cert.ReferenceIdeal.dot_S50000x128_S128x128_S50000x128_1_0_0_1_n_n.rhsIdx_val_of_single rfl i _).trans hk
    | ⟨1, _⟩ => exact dot128_rhs_col _ _)
  rw [el, er]
  rfl

end Cert.RefProducts

end
-- ==== Proof.LibSegmentSum.lean ====
/-
  A general lemma file: the host's row gather and accumulating row scatter read at an index, and the law that joins a
  segment sum of `h[row] + u` with `count · h + segment sum of u`.

  Shapes: node table `[N, D]`, index column `[E, 1]` (one signed 32-bit row number per edge), edge table `[E, D]`,
  and for the per-node count a vector `[N]` fed by a vector `[E]`.

  * `rowGather_apply` — gathering rows of the node table by the index column: edge `e`, feature `c` reads the table
    at row `min (toNat (signed index)) (N - 1)` (a negative index reads row `0`), feature `c`.
  * `rowScatterAdd_apply` — the accumulating scatter of edge rows into the node table: node `n`, feature `c` ends at
    its old value plus the sum, over the edges whose SIGNED index is exactly `n`, of the edge's value at `c`; an
    edge whose index is negative or `≥ N` lands nowhere.
  * `vecScatterAdd_apply` — the same for a vector of per-edge numbers into a vector of per-node numbers.
  * `natCast_mul_eq_nsmul` — on the extended reals a natural number times `a` is `a` added that many times
    (also at `±∞`, where the general distributive law fails).
  * `segmentSum_self_add` — THE LAW. If the gather's index column agrees with the scatter's wherever the latter is
    non-negative, then scattering `h[gatherIdx e] + u e` is `(number of edges landing on n) · h n + scatter of u`,
    the count being the scatter of ones.
-/
import Idealize.ShloMosaic.PureOps.Ideal
import Idealize.ShloMosaic.Lib.ValueIdx

noncomputable section

open scoped BigOperators

namespace Cert.Lib.SegmentSum

open Idealize.ShloMosaic Idealize.ShloMosaic.ValueIdx

/-! ## The dimension numbers -/

/-- Row gather `[N, D]` by `[E, 1]` into `[E, D]`: axis 0 indexed and collapsed, axis 1 taken whole. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Row scatter of `[E, D]` into `[N, D]` by `[E, 1]`: axis 0 indexed, axis 1 the update's window. -/
abbrev rowScatterDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Scatter of a vector `[E]` into a vector `[N]` by `[E, 1]`: no window. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The index column's entry for edge `e`. -/
abbrev col {E : Nat} (e : Fin E) : (⟨2, ![E, 1]⟩ : Shape).Idx := ix2 e (0 : Fin 1)

/-! ## The row scatter: where an update lands -/

/-- An axis is kept exactly when it is not among the dropped ones. -/
theorem mem_kept {s : Shape} (axes : List (Fin s.rank)) (a : Fin s.rank) : a ∈ s.kept axes ↔ a ∉ axes := by
  simp [Shape.kept, List.mem_filter, List.mem_finRange]

theorem one_not_mem_zero : ¬ (1 : Fin 2) ∈ ([0] : List (Fin 2)) :=
  fun h => absurd (List.mem_singleton.1 h) (by decide)

section RowScatter
variable {N E D w : Nat} (wf : ScatterDims.WF ⟨2, ![N, D]⟩ ⟨2, ![E, 1]⟩ ⟨2, ![E, D]⟩ [1] [0] [0] 1)
  (idx : IVec ⟨2, ![E, 1]⟩ w)

theorem rowScatter_start0 (e : Fin E) (c : Fin D) :
    (rowScatterDims N E D wf).start (ix2 e c) idx 0 = (idx (col e)).toInt := by
  unfold ScatterDims.start
  rw [dif_pos (show (0 : Fin 2) ∈ (rowScatterDims N E D wf).scatterDimsToOperandDims from List.mem_singleton.mpr rfl)]
  have hsi : (rowScatterDims N E D wf).siIdx (ix2 e c) ⟨List.idxOf (0 : Fin 2) (rowScatterDims N E D wf).scatterDimsToOperandDims,
      List.idxOf_lt_length_iff.2 (List.mem_singleton.mpr rfl)⟩ = col e := by
    funext b; refine Fin.ext ?_
    match b with
    | ⟨0, _⟩ => rfl
    | ⟨1, _⟩ => rfl
  rw [hsi]

theorem rowScatter_start1 (e : Fin E) (c : Fin D) : (rowScatterDims N E D wf).start (ix2 e c) idx 1 = 0 := by
  unfold ScatterDims.start
  rw [dif_neg (show ¬ (1 : Fin 2) ∈ (rowScatterDims N E D wf).scatterDimsToOperandDims from one_not_mem_zero)]

theorem rowScatter_window0 (e : Fin E) (c : Fin D) : (rowScatterDims N E D wf).window (ix2 e c) 0 = 0 := by
  unfold ScatterDims.window
  rw [dif_neg (show ¬ (0 : Fin 2) ∈ (rowScatterDims N E D wf).sKept from
    fun h => (mem_kept _ _).1 h (List.mem_singleton.mpr rfl))]

theorem rowScatter_window1 (e : Fin E) (c : Fin D) : (rowScatterDims N E D wf).window (ix2 e c) 1 = c.val := by
  unfold ScatterDims.window
  rw [dif_pos (show (1 : Fin 2) ∈ (rowScatterDims N E D wf).sKept from (mem_kept _ _).2 one_not_mem_zero)]
  rfl

/-- Edge `e`'s value at feature `c` lands on node `n`, feature `c'` exactly when `e`'s signed index is `n` and
    `c = c'`. -/
theorem rowScatter_resultIdx?_eq_some (e : Fin E) (c : Fin D) (n : Fin N) (c' : Fin D) :
    (rowScatterDims N E D wf).resultIdx? (ix2 e c) idx = some (ix2 n c') ↔ (idx (col e)).toInt = (n.val : Int) ∧ c = c' := by
  unfold ScatterDims.resultIdx?
  split
  · rename_i h
    rw [Option.some.injEq]
    constructor
    · intro hf
      have h0 : ((rowScatterDims N E D wf).start (ix2 e c) idx 0 + ((rowScatterDims N E D wf).window (ix2 e c) 0 : Int)).toNat = n.val :=
        congrArg (fun f : (⟨2, ![N, D]⟩ : Shape).Idx => (f 0).val) hf
      have h1 : ((rowScatterDims N E D wf).start (ix2 e c) idx 1 + ((rowScatterDims N E D wf).window (ix2 e c) 1 : Int)).toNat = c'.val :=
        congrArg (fun f : (⟨2, ![N, D]⟩ : Shape).Idx => (f 1).val) hf
      have hh := (h 0).1
      rw [rowScatter_start0, rowScatter_window0] at h0 hh
      rw [rowScatter_start1, rowScatter_window1] at h1
      refine ⟨by omega, Fin.ext (by omega)⟩
    · rintro ⟨h0, rfl⟩
      funext a; refine Fin.ext ?_
      match a with
      | ⟨0, _⟩ =>
        show ((rowScatterDims N E D wf).start (ix2 e c) idx 0 + ((rowScatterDims N E D wf).window (ix2 e c) 0 : Int)).toNat = n.val
        rw [rowScatter_start0, rowScatter_window0]; omega
      | ⟨1, _⟩ =>
        show ((rowScatterDims N E D wf).start (ix2 e c) idx 1 + ((rowScatterDims N E D wf).window (ix2 e c) 1 : Int)).toNat = c.val
        rw [rowScatter_start1, rowScatter_window1]; omega
  · rename_i h
    constructor
    · intro hf; exact absurd hf (by simp)
    · rintro ⟨h0, rfl⟩
      exfalso; apply h
      intro a
      match a with
      | ⟨0, _⟩ =>
        show 0 ≤ (rowScatterDims N E D wf).start (ix2 e c) idx 0 + ((rowScatterDims N E D wf).window (ix2 e c) 0 : Int)
          ∧ (rowScatterDims N E D wf).start (ix2 e c) idx 0 + ((rowScatterDims N E D wf).window (ix2 e c) 0 : Int) < (N : Int)
        rw [rowScatter_start0, rowScatter_window0]; have := n.isLt; omega
      | ⟨1, _⟩ =>
        show 0 ≤ (rowScatterDims N E D wf).start (ix2 e c) idx 1 + ((rowScatterDims N E D wf).window (ix2 e c) 1 : Int)
          ∧ (rowScatterDims N E D wf).start (ix2 e c) idx 1 + ((rowScatterDims N E D wf).window (ix2 e c) 1 : Int) < (D : Int)
        rw [rowScatter_start1, rowScatter_window1]; have := c.isLt; omega

end RowScatter

/-! ## The accumulating row scatter read at a node and a feature -/

section RowScatterAdd
variable {N E D w : Nat} (wf : ScatterDims.WF ⟨2, ![N, D]⟩ ⟨2, ![E, 1]⟩ ⟨2, ![E, D]⟩ [1] [0] [0] 1)
  (idx : IVec ⟨2, ![E, 1]⟩ w)

/-- Node `n`, feature `c` after the accumulating scatter: the old value plus the sum over the edges whose signed
    index is `n` of the edge's value at `c`. -/
theorem rowScatterAdd_apply (x : (⟨2, ![N, D]⟩ : Shape).Idx → EReal) (upd : (⟨2, ![E, D]⟩ : Shape).Idx → EReal)
    (n : Fin N) (c : Fin D) :
    Ideal.hostScatterAdd (rowScatterDims N E D wf) x idx upd (ix2 n c)
      = x (ix2 n c) + ∑ e ∈ Finset.univ.filter (fun e : Fin E => (idx (col e)).toInt = (n.val : Int)), upd (ix2 e c) := by
  unfold Ideal.hostScatterAdd
  congr 1
  refine Finset.sum_bij' (fun j _ => (j 0 : Fin E)) (fun e _ => ix2 e c) ?_ ?_ ?_ ?_ ?_
  · intro j hj
    obtain ⟨e, c', rfl⟩ : ∃ (e : Fin E) (c' : Fin D), j = ix2 e c' := ⟨j 0, j 1, eq_ix2 j⟩
    exact Finset.mem_filter.2 ⟨Finset.mem_univ _,
      ((rowScatter_resultIdx?_eq_some wf idx e c' n c).1 (Finset.mem_filter.1 hj).2).1⟩
  · intro e he
    exact Finset.mem_filter.2 ⟨Finset.mem_univ _,
      (rowScatter_resultIdx?_eq_some wf idx e c n c).2 ⟨(Finset.mem_filter.1 he).2, rfl⟩⟩
  · intro j hj
    obtain ⟨e, c', rfl⟩ : ∃ (e : Fin E) (c' : Fin D), j = ix2 e c' := ⟨j 0, j 1, eq_ix2 j⟩
    have hc : c' = c := ((rowScatter_resultIdx?_eq_some wf idx e c' n c).1 (Finset.mem_filter.1 hj).2).2
    show ix2 e c = ix2 e c'
    rw [hc]
  · intro e _; rfl
  · intro j hj
    obtain ⟨e, c', rfl⟩ : ∃ (e : Fin E) (c' : Fin D), j = ix2 e c' := ⟨j 0, j 1, eq_ix2 j⟩
    have hc : c' = c := ((rowScatter_resultIdx?_eq_some wf idx e c' n c).1 (Finset.mem_filter.1 hj).2).2
    show upd (ix2 e c') = upd (ix2 e c)
    rw [hc]

end RowScatterAdd

/-! ## The accumulating vector scatter read at a node -/

section VecScatter
variable {N E w : Nat} (wf : ScatterDims.WF ⟨1, ![N]⟩ ⟨2, ![E, 1]⟩ ⟨1, ![E]⟩ [] [0] [0] 1)
  (idx : IVec ⟨2, ![E, 1]⟩ w)

theorem vecScatter_start (e : Fin E) : (vecScatterDims N E wf).start (ix1 e) idx 0 = (idx (col e)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = col e := by
    funext b; refine Fin.ext ?_
    match b with
    | ⟨0, _⟩ => rfl
    | ⟨1, _⟩ => rfl
  rw [hsi]

theorem vecScatter_window (e : Fin E) : (vecScatterDims N E wf).window (ix1 e) 0 = 0 := by
  unfold ScatterDims.window
  rw [dif_neg (show ¬ (0 : Fin 1) ∈ (vecScatterDims N E wf).sKept from
    fun h => (mem_kept _ _).1 h (List.mem_singleton.mpr rfl))]

/-- Edge `e`'s number lands on node `n` exactly when `e`'s signed index is `n`. -/
theorem vecScatter_resultIdx?_eq_some (e : Fin E) (n : Fin N) :
    (vecScatterDims N E wf).resultIdx? (ix1 e) idx = some (ix1 n) ↔ (idx (col e)).toInt = (n.val : Int) := by
  unfold ScatterDims.resultIdx?
  split
  · rename_i h
    rw [Option.some.injEq]
    constructor
    · intro hf
      have h0 : ((vecScatterDims N E wf).start (ix1 e) idx 0 + ((vecScatterDims N E wf).window (ix1 e) 0 : Int)).toNat = n.val :=
        congrArg (fun f : (⟨1, ![N]⟩ : Shape).Idx => (f 0).val) hf
      have hh := (h 0).1
      rw [vecScatter_start, vecScatter_window] at h0 hh
      omega
    · intro h0
      funext a; refine Fin.ext ?_
      match a with
      | ⟨0, _⟩ =>
        show ((vecScatterDims N E wf).start (ix1 e) idx 0 + ((vecScatterDims N E wf).window (ix1 e) 0 : Int)).toNat = n.val
        rw [vecScatter_start, vecScatter_window]; omega
  · rename_i h
    constructor
    · intro hf; exact absurd hf (by simp)
    · intro h0
      exfalso; apply h
      intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [vecScatter_start, vecScatter_window]; have := n.isLt; omega

/-- Node `n` after the accumulating vector scatter: the old value plus the sum over the edges whose signed index
    is `n` of the edge's number. -/
theorem vecScatterAdd_apply (x : (⟨1, ![N]⟩ : Shape).Idx → EReal) (upd : (⟨1, ![E]⟩ : Shape).Idx → EReal) (n : Fin N) :
    Ideal.hostScatterAdd (vecScatterDims N E wf) x idx upd (ix1 n)
      = x (ix1 n) + ∑ e ∈ Finset.univ.filter (fun e : Fin E => (idx (col e)).toInt = (n.val : Int)), upd (ix1 e) := by
  unfold Ideal.hostScatterAdd
  congr 1
  refine Finset.sum_bij' (fun j _ => (j 0 : Fin E)) (fun e _ => ix1 e) ?_ ?_ ?_ ?_ ?_
  · intro j hj
    obtain ⟨e, rfl⟩ : ∃ e : Fin E, j = ix1 e := ⟨j 0, eq_ix1 j⟩
    exact Finset.mem_filter.2 ⟨Finset.mem_univ _,
      (vecScatter_resultIdx?_eq_some wf idx e n).1 (Finset.mem_filter.1 hj).2⟩
  · intro e he
    exact Finset.mem_filter.2 ⟨Finset.mem_univ _,
      (vecScatter_resultIdx?_eq_some wf idx e n).2 (Finset.mem_filter.1 he).2⟩
  · intro j _
    obtain ⟨e, rfl⟩ : ∃ e : Fin E, j = ix1 e := ⟨j 0, eq_ix1 j⟩
    rfl
  · intro e _; rfl
  · intro j _
    obtain ⟨e, rfl⟩ : ∃ e : Fin E, j = ix1 e := ⟨j 0, eq_ix1 j⟩
    rfl

end VecScatter

/-! ## The row gather read at an edge and a feature -/

section RowGather
variable {α : Type} {N E D w : Nat}
  (wf : GatherDims.WF ⟨2, ![N, D]⟩ ⟨2, ![E, 1]⟩ ⟨2, ![E, D]⟩ [1] [0] [] [0] [] 1 ![1, D])

/-- Edge `e`, feature `c` of the gathered table: the node table at the row the index column names for `e`, read
    signed and clamped into `[0, N − 1]`, at feature `c`. -/
theorem rowGather_apply (hN : 0 < N) (x : (⟨2, ![N, D]⟩ : Shape).Idx → α) (idx : IVec ⟨2, ![E, 1]⟩ w) (e : Fin E) (c : Fin D) :
    Host.gather (rowGatherDims N E D wf) x idx (ix2 e c)
      = x (ix2 (⟨min (idx (col e)).toInt.toNat (N - 1), by omega⟩ : Fin N) c) := by
  unfold Host.gather
  congr 1
  funext a
  refine Fin.ext ?_
  match a with
  | ⟨0, _⟩ =>
    show (rowGatherDims N E D wf).start (ix2 e c) idx 0 + (rowGatherDims N E D wf).batchCoord (ix2 e c) 0
      + (rowGatherDims N E D wf).offCoord (ix2 e c) 0 = min (idx (col e)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx (ix2 e c) ⟨List.idxOf (0 : Fin 2) (rowGatherDims N E D wf).startIndexMap,
        List.idxOf_lt_length_iff.2 (List.mem_singleton.mpr rfl)⟩ = col e := by
      funext b; refine Fin.ext ?_
      match b with
      | ⟨0, _⟩ => rfl
      | ⟨1, _⟩ => rfl
    rw [hsi]
    rfl
  | ⟨1, _⟩ =>
    show (rowGatherDims N E D wf).start (ix2 e c) idx 1 + (rowGatherDims N E D wf).batchCoord (ix2 e c) 1
      + (rowGatherDims N E D wf).offCoord (ix2 e c) 1 = c.val
    rw [GatherDims.batchCoord_eq_zero _ _ _ List.not_mem_nil]
    have hs : (rowGatherDims N E D wf).start (ix2 e c) idx 1 = 0 := by
      unfold GatherDims.start
      rw [dif_neg (show ¬ (1 : Fin 2) ∈ (rowGatherDims N E D wf).startIndexMap from one_not_mem_zero)]
    have ho : (rowGatherDims N E D wf).offCoord (ix2 e c) 1 = c.val := by
      unfold GatherDims.offCoord
      rw [dif_pos (show (1 : Fin 2) ∈ (rowGatherDims N E D wf).sKept from
        (GatherDims.mem_sKept _ _).2 ⟨one_not_mem_zero, List.not_mem_nil⟩)]
      rfl
    rw [hs, ho]; omega

end RowGather

/-! ## A natural number of copies on the extended reals -/

/-- On the extended reals `k · a` is `a` added `k` times, for every `a`, infinite ones included: `k` and `1` are
    non-negative, and the distributive law holds for non-negative left factors. -/
theorem natCast_mul_eq_nsmul (k : ℕ) (a : EReal) : (k : EReal) * a = k • a := by
  induction k with
  | zero => simp
  | succ k ih =>
    have hk : (0 : EReal) ≤ (k : EReal) := by exact_mod_cast Nat.zero_le k
    rw [Nat.cast_succ, EReal.right_distrib_of_nonneg hk zero_le_one, ih, one_mul, succ_nsmul]

/-! ## The law -/

/-- THE LAW. Scatter, by the index column `sIdx`, the edge values `h[gIdx e] + u e` into a zero table. If `gIdx`
    agrees with `sIdx` wherever `sIdx` is non-negative, the result at node `n`, feature `c` is
    `(scatter of ones at n) · h n c + (scatter of u at n c)`: an edge that lands on `n` has signed index `n ≥ 0`, so its
    gathered row is row `n` itself; the sum of the constant `h n c` over those edges is their number times `h n c`. -/
theorem segmentSum_self_add {N E D w : Nat} (hN : 0 < N)
    (wfG : GatherDims.WF ⟨2, ![N, D]⟩ ⟨2, ![E, 1]⟩ ⟨2, ![E, D]⟩ [1] [0] [] [0] [] 1 ![1, D])
    (wfS : ScatterDims.WF ⟨2, ![N, D]⟩ ⟨2, ![E, 1]⟩ ⟨2, ![E, D]⟩ [1] [0] [0] 1)
    (wfV : ScatterDims.WF ⟨1, ![N]⟩ ⟨2, ![E, 1]⟩ ⟨1, ![E]⟩ [] [0] [0] 1)
    (h : (⟨2, ![N, D]⟩ : Shape).Idx → EReal) (u : (⟨2, ![E, D]⟩ : Shape).Idx → EReal)
    (sIdx gIdx : IVec ⟨2, ![E, 1]⟩ w)
    (hagree : ∀ e : Fin E, 0 ≤ (sIdx (col e)).toInt → gIdx (col e) = sIdx (col e))
    (n : Fin N) (c : Fin D) :
    Ideal.hostScatterAdd (rowScatterDims N E D wfS) (fun _ => 0) sIdx
        (fun j => Host.gather (rowGatherDims N E D wfG) h gIdx j + u j) (ix2 n c)
      = Ideal.hostScatterAdd (vecScatterDims N E wfV) (fun _ => 0) sIdx (fun _ => 1) (ix1 n) * h (ix2 n c)
        + Ideal.hostScatterAdd (rowScatterDims N E D wfS) (fun _ => 0) sIdx u (ix2 n c) := by
  rw [rowScatterAdd_apply, rowScatterAdd_apply, vecScatterAdd_apply]
  simp only [zero_add]
  have hg : ∀ e ∈ Finset.univ.filter (fun e : Fin E => (sIdx (col e)).toInt = (n.val : Int)),
      Host.gather (rowGatherDims N E D wfG) h gIdx (ix2 e c) + u (ix2 e c) = h (ix2 n c) + u (ix2 e c) := by
    intro e he
    have hs : (sIdx (col e)).toInt = (n.val : Int) := (Finset.mem_filter.1 he).2
    have hrow : (⟨min (gIdx (col e)).toInt.toNat (N - 1), by omega⟩ : Fin N) = n := by
      refine Fin.ext ?_
      show min (gIdx (col e)).toInt.toNat (N - 1) = n.val
      rw [hagree e (by omega)]
      have := n.isLt; omega
    rw [rowGather_apply wfG hN, hrow]
  rw [Finset.sum_congr rfl hg, Finset.sum_add_distrib, Finset.sum_const, Finset.sum_const, nsmul_one,
    natCast_mul_eq_nsmul]

/-! ## The wrapped index of a non-negative index is the index itself -/

/-- `x[i]` is lowered with `i < 0 ? i + N : i` in front of the gather; on a non-negative `i` that is `i`. -/
theorem select_slt_zero_of_nonneg (a b : BitVec 32) (h : 0 ≤ a.toInt) :
    Scalar.select (IntOp.cmpi .slt a 0#32) b a = a := by
  have hs : a.slt 0#32 = false := by
    simp only [BitVec.slt, BitVec.toInt_zero, decide_eq_false_iff_not, not_lt]; exact h
  unfold Scalar.select IntOp.cmpi
  simp [hs]

end Cert.Lib.SegmentSum

end
-- ==== Proof.LayerBridge.lean ====
/-
  The two programs' layers are one function. Both gather rows at the wrapped sources and add them up at the
  destinations; one scales node v's row of (x·W) by dinv v before the gather and node v's sum by dinv v after it, the
  other scales edge e's gathered row by dinv[src e]·dinv[dst e]. dinv is a nonnegative real everywhere, and on an edge
  that lands on v the wrapped, clamped destination is v itself, so the factor dinv[dst e] is the constant dinv v on
  the terms of v's sum and moves across it. The rectifier, the bias, the pair scores and everything computed from the
  edge list are the same operations in both programs. Composing three layers gives equal pair scores.
-/
import proofs.«118284_j48473000903025_2_alg».proof.Proof.KernelTerms
import proofs.«118284_j48473000903025_2_alg».proof.Proof.RefTerms
import proofs.«118284_j48473000903025_2_alg».proof.Proof.MatScale
import proofs.«118284_j48473000903025_2_alg».proof.Proof.LibGcnScale
import proofs.«118284_j48473000903025_2_alg».proof.Proof.LibGuardedRsqrt
import proofs.«118284_j48473000903025_2_alg».proof.Proof.RefProducts
import proofs.«118284_j48473000903025_2_alg».proof.Proof.LibRowOps
import proofs.«118284_j48473000903025_2_alg».proof.Proof.LibSegmentSum
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

open scoped BigOperators

namespace Cert.LayerBridge

open Idealize.ShloMosaic Idealize.ShloMosaic.ValueIdx Cert.MatScale Cert.Lib.RowOps

/-! ## What the two programs share -/

theorem src_eq (x1 : (⟨Cert.KernelIdeal.S2x320000, .i32⟩ : BufTy).Contents (Elt Ideal)) : Cert.KernelIdeal.Terms.srcFull x1 = Cert.ReferenceIdeal.Terms.srcFull x1 := rfl
theorem dst_eq (x1 : (⟨Cert.KernelIdeal.S2x320000, .i32⟩ : BufTy).Contents (Elt Ideal)) : Cert.KernelIdeal.Terms.dstFull x1 = Cert.ReferenceIdeal.Terms.dstFull x1 := rfl
theorem dinv_eq (x1 : (⟨Cert.KernelIdeal.S2x320000, .i32⟩ : BufTy).Contents (Elt Ideal)) : Cert.KernelIdeal.Terms.dinv x1 = Cert.ReferenceIdeal.Terms.dinv x1 := rfl
theorem relu_eq (x : (⟨Cert.KernelIdeal.S50000x128, .f32⟩ : BufTy).Contents (Elt Ideal)) : Cert.KernelIdeal.Terms.relu x = Cert.ReferenceIdeal.Terms.relu x := rfl
theorem decode_eq (z : (⟨Cert.KernelIdeal.S50000x128, .f32⟩ : BufTy).Contents (Elt Ideal)) (x2 : (⟨Cert.KernelIdeal.S2x200000, .i32⟩ : BufTy).Contents (Elt Ideal)) : Cert.KernelIdeal.Terms.decode z x2 = Cert.ReferenceIdeal.Terms.decode z x2 := rfl

/-! ## dinv is a nonnegative real; wrapping a nonnegative row number does nothing -/

/-- `x > 0 ? rsqrt x : 0`, as the two programs spell it entry by entry, lies in [0, +∞) for any vector in place of the
    degree. -/
theorem guarded_vec (D : (⟨1, ![50000]⟩ : Shape).Idx → EReal) (i : (⟨1, ![50000]⟩ : Shape).Idx) :
    0 ≤ Scalar.select (FloatOps.cmpf (F := Ideal) (φ := .f32) .ogt (D i) 0) (Host.rsqrt (F := Ideal) (φ := .f32) D i) 0
      ∧ Scalar.select (FloatOps.cmpf (F := Ideal) (φ := .f32) .ogt (D i) 0) (Host.rsqrt (F := Ideal) (φ := .f32) D i) 0 ≠ ⊤ :=
  Cert.Lib.GuardedRsqrt.guarded_rsqrt_bounds (D i) 0 rfl

/-- The float literal of all-zero bits is the real number 0. -/
theorem zero_const : constant (F := Ideal) Cert.ReferenceIdeal.S_ .f32 0x00000000#32 ix0 = (0 : EReal) :=
  (constant_apply _ _).trans Ideal.ofBits_zero_f32

/-- dinv at a node, with the compare, the select and the two zero constants read at the node. -/
theorem dinv_unfolded (x1 : (⟨Cert.KernelIdeal.S2x320000, .i32⟩ : BufTy).Contents (Elt Ideal)) (i : (⟨1, ![50000]⟩ : Shape).Idx) :
    (Cert.ReferenceIdeal.Terms.dinv (F := Ideal) x1) i = Scalar.select (FloatOps.cmpf (F := Ideal) (φ := .f32) .ogt (Cert.ReferenceIdeal.Terms.deg (F := Ideal) x1 i) 0) (Host.rsqrt (F := Ideal) (φ := .f32) (Cert.ReferenceIdeal.Terms.deg (F := Ideal) x1) i) 0 := by
  unfold Cert.ReferenceIdeal.Terms.dinv
  rw [select_apply, cmpf_apply, broadcastInDim_scalar_apply, broadcastInDim_scalar_apply, id_eq, zero_const]

theorem dinv_bounds (x1 : (⟨Cert.KernelIdeal.S2x320000, .i32⟩ : BufTy).Contents (Elt Ideal)) (i : (⟨1, ![50000]⟩ : Shape).Idx) :
    0 ≤ (Cert.ReferenceIdeal.Terms.dinv (F := Ideal) x1) i ∧ (Cert.ReferenceIdeal.Terms.dinv (F := Ideal) x1) i ≠ ⊤ := by
  rw [dinv_unfolded]
  exact guarded_vec _ i

/-- The column form of dinv at row r is dinv r. -/
theorem dinvCol_at (x1 : (⟨Cert.KernelIdeal.S2x320000, .i32⟩ : BufTy).Contents (Elt Ideal)) (r : Fin 50000) :
    Cert.KernelIdeal.Terms.dinvCol (F := Ideal) x1 (ix2 r (0 : Fin 1)) = (Cert.ReferenceIdeal.Terms.dinv (F := Ideal) x1) (ix1 r) := by
  unfold Cert.KernelIdeal.Terms.dinvCol
  rw [dinv_eq]
  exact broadcastInDim_apply _ _ _ (ix2 r (0 : Fin 1)) (ix1 r) (fun a => by
      match a with
      | ⟨0, _⟩ => rfl)

/-- On an edge whose destination is not negative the wrapped destination column agrees with the raw one. -/
theorem wrap_agrees (d : (⟨1, ![370000]⟩ : Shape).Idx → BitVec 32) (e : Fin 370000) (he : 0 ≤ (Cert.ReferenceIdeal.Terms.rawCol (F := Ideal) d (at0 e)).toInt) :
    Cert.ReferenceIdeal.Terms.wrapCol (F := Ideal) d (at0 e) = Cert.ReferenceIdeal.Terms.rawCol (F := Ideal) d (at0 e) := by
  have h1 : Cert.ReferenceIdeal.Terms.rawCol (F := Ideal) d (at0 e) = d (ix1 e) := by
    unfold Cert.ReferenceIdeal.Terms.rawCol
    exact broadcastInDim_apply _ _ _ (at0 e) (ix1 e) (fun a => by
      match a with
      | ⟨0, _⟩ => rfl)
  have h2 : Cert.ReferenceIdeal.Terms.wrapCol (F := Ideal) d (at0 e) = Scalar.select (IntOp.cmpi .slt (d (ix1 e)) 0#32) (IntOp.addi (d (ix1 e)) 50000#32) (d (ix1 e)) := by
    unfold Cert.ReferenceIdeal.Terms.wrapCol
    exact broadcastInDim_apply _ _ _ (at0 e) (ix1 e) (fun a => by
      match a with
      | ⟨0, _⟩ => rfl)
  rw [h1] at he ⊢
  rw [h2]
  exact Cert.Lib.SegmentSum.select_slt_zero_of_nonneg _ _ he

/-! ## Two spellings of one scatter-add or gather agree when their arguments do -/

theorem scatterAdd_congr {s si su : Shape} {w : Nat} (d d' : ScatterDims s si su) (x x' : s.Idx → EReal) (idx idx' : IVec si w)
    (u u' : su.Idx → EReal) (hd : d = d') (hx : x = x') (hi : idx = idx') (hu : u = u') (i : s.Idx) :
    Ideal.hostScatterAdd d x idx u i = Ideal.hostScatterAdd d' x' idx' u' i := by
  subst hd hx hi hu
  rfl

/-- The host's accumulating scatter at the exact reading is the operand plus the sum of the updates that land. -/
theorem scatterAdd_ideal {s si su : Shape} {w : Nat} {φ : FTy} (d : ScatterDims s si su) (x : FVec Ideal s φ) (idx : IVec si w) (u : FVec Ideal su φ) :
    Host.scatterAdd d x idx u = Ideal.hostScatterAdd d x idx u := rfl

theorem gather_congr {s si so : Shape} {w : Nat} {α : Type} (d d' : GatherDims s si so) (x x' : s.Idx → α) (idx idx' : IVec si w)
    (hd : d = d') (hx : x = x') (hi : idx = idx') : Host.gather d x idx = Host.gather d' x' idx' := by
  subst hd hx hi
  rfl

/-! ## One layer, over its pieces -/

/-- The reference's update of edge e, feature f: the gathered entry of h times the edge's weight, the weight being cv at the
    wrapped source times cv at the wrapped destination. -/
theorem edge_update_at (hh : (⟨2, ![50000, 128]⟩ : Shape).Idx → EReal) (cv : (⟨1, ![50000]⟩ : Shape).Idx → EReal) (s d : (⟨1, ![370000]⟩ : Shape).Idx → BitVec 32) (e : Fin 370000) (f : Fin 128) :
    mulf (F := Ideal) (φ := .f32) (Host.gather Cert.ReferenceIdeal.gather_S50000x128_S370000x1_S370000x128_1_0_n_n_0_1_1128 hh (Cert.ReferenceIdeal.Terms.wrapCol (F := Ideal) s)) (broadcastInDim Cert.ReferenceIdeal.S370000x128 ![0, 1] Cert.ReferenceIdeal.Gen.bcast_S370000x1_S370000x128_0_1 (broadcastInDim Cert.ReferenceIdeal.S370000x1 ![0] Cert.ReferenceIdeal.Gen.bcast_S370000_S370000x1_0 (Cert.ReferenceIdeal.Terms.edgeNormG (F := Ideal) cv s d))) (ix2 e f)
      = Host.gather (gatherRows2 50000 370000 128 Cert.ReferenceIdeal.gather_S50000x128_S370000x1_S370000x128_1_0_n_n_0_1_1128.wf) hh (Cert.ReferenceIdeal.Terms.wrapCol (F := Ideal) s) (ix2 e f) * (Host.gather (gatherRows1 50000 370000 Cert.ReferenceIdeal.gather_S50000_S370000x1_S370000_n_0_n_n_0_1_1.wf) cv (Cert.ReferenceIdeal.Terms.wrapCol (F := Ideal) s) (ix1 e) * Host.gather (gatherRows1 50000 370000 Cert.ReferenceIdeal.gather_S50000_S370000x1_S370000_n_0_n_n_0_1_1.wf) cv (Cert.ReferenceIdeal.Terms.wrapCol (F := Ideal) d) (ix1 e)) := by
  rw [mulf_apply]
  refine congrArg₂ (· * ·) (congrFun (gather_congr _ _ _ _ _ _ rfl rfl rfl) (ix2 e f)) ?_
  refine ((broadcastInDim_apply _ _ _ (ix2 e f) (ix2 e (0 : Fin 1)) (fun a => by
    match a with
    | ⟨0, _⟩ => rfl
    | ⟨1, _⟩ => rfl)).trans (broadcastInDim_apply _ _ _ (ix2 e (0 : Fin 1)) (ix1 e) (fun a => by
    match a with
    | ⟨0, _⟩ => rfl))).trans ?_
  unfold Cert.ReferenceIdeal.Terms.edgeNormG
  rw [mulf_apply]
  exact congrArg₂ (· * ·) (congrFun (gather_congr _ _ _ _ _ _ rfl rfl rfl) (ix1 e)) (congrFun (gather_congr _ _ _ _ _ _ rfl rfl rfl) (ix1 e))

/-- Scale the rows of h by cv (given also as the column `dcol`), gather, add up, scale the sums by the column: the
    reference's tail of h with the per-edge weights cv[src]·cv[dst]. Every piece is a variable: only that cv is a
    nonnegative real, and that the column is cv, matter. -/
theorem layer_generic (hh : (⟨2, ![50000, 128]⟩ : Shape).Idx → EReal) (cv : (⟨1, ![50000]⟩ : Shape).Idx → EReal) (hc : ∀ i, 0 ≤ cv i ∧ cv i ≠ ⊤) (s d : (⟨1, ![370000]⟩ : Shape).Idx → BitVec 32)
    (dcol : (⟨2, ![50000, 1]⟩ : Shape).Idx → EReal) (hdcol : ∀ r : Fin 50000, dcol (ix2 r (0 : Fin 1)) = cv (ix1 r)) (b : (⟨1, ![128]⟩ : Shape).Idx → EReal) :
    Cert.KernelIdeal.Terms.tailG (F := Ideal) (fun r => hh r * dcol (ix2 (r 0) (0 : Fin 1))) s d dcol b = Cert.ReferenceIdeal.Terms.tailRG (F := Ideal) hh cv s d b := by
  funext i
  obtain ⟨v, j, rfl⟩ : ∃ (v : Fin 50000) (j : Fin 128), i = ix2 v j := ⟨i 0, i 1, eq_ix2 i⟩
  unfold Cert.KernelIdeal.Terms.tailG Cert.ReferenceIdeal.Terms.tailRG
  rw [addf_apply, addf_apply, mulf_apply]
  refine congrArg₂ (· + ·) ?_ rfl
  refine (congrArg₂ (· * ·) ?_ ?_).trans ((Cert.Lib.GcnScale.scale_rows_then_sum (by decide) Cert.ReferenceIdeal.gather_S50000x128_S370000x1_S370000x128_1_0_n_n_0_1_1128.wf Cert.ReferenceIdeal.gather_S50000_S370000x1_S370000_n_0_n_n_0_1_1.wf Cert.ReferenceIdeal.scatter_S50000x128_S370000x1_S370000x128_1_0_0_1.wf hh cv hc (Cert.ReferenceIdeal.Terms.wrapCol (F := Ideal) s) (Cert.ReferenceIdeal.Terms.wrapCol (F := Ideal) d) (Cert.ReferenceIdeal.Terms.rawCol (F := Ideal) d) (wrap_agrees d) (ix2 v j)).trans ?_)
  · -- the column broadcast along the rows, at (v, j), is cv v
    exact (broadcastInDim_apply _ _ _ (ix2 v j) (ix2 v (0 : Fin 1)) (fun a => by
      match a with
      | ⟨0, _⟩ => rfl
      | ⟨1, _⟩ => rfl)).trans (hdcol v)
  · -- the first program's segment sum: starts from zero, of the rows of h·cv
    have hz : (broadcastInDim Cert.KernelIdeal.S50000x128 ![] Cert.KernelIdeal.Gen.bcast_S_S50000x128 (constant (F := Ideal) Cert.KernelIdeal.S_ .f32 0x00000000#32)) = fun _ => (0 : EReal) :=
      funext fun _ => (broadcastInDim_scalar_apply _ _ _).trans ((constant_apply _ _).trans Ideal.ofBits_zero_f32)
    have hf : (fun r : (⟨2, ![50000, 128]⟩ : Shape).Idx => hh r * dcol (ix2 (r 0) (0 : Fin 1))) = fun r => hh r * cv (ix1 (r 0)) :=
      funext fun r => congrArg (fun t => hh r * t) (hdcol (r 0))
    have hd : Cert.KernelIdeal.scatter_S50000x128_S370000x1_S370000x128_1_0_0_1 = (scatterRows2 50000 370000 128 Cert.ReferenceIdeal.scatter_S50000x128_S370000x1_S370000x128_1_0_0_1.wf) := rfl
    have hi : broadcastInDim Cert.KernelIdeal.S370000x1 ![0] Cert.KernelIdeal.Gen.bcast_S370000_S370000x1_0 d = Cert.ReferenceIdeal.Terms.rawCol (F := Ideal) d := rfl
    have hg : Host.gather Cert.KernelIdeal.gather_S50000x128_S370000x1_S370000x128_1_0_n_n_0_1_1128 (fun r : (⟨2, ![50000, 128]⟩ : Shape).Idx => hh r * cv (ix1 (r 0))) (Cert.KernelIdeal.Terms.wrapCol (F := Ideal) s)
        = Host.gather (gatherRows2 50000 370000 128 Cert.ReferenceIdeal.gather_S50000x128_S370000x1_S370000x128_1_0_n_n_0_1_1128.wf) (fun r => hh r * cv (ix1 (r 0))) (Cert.ReferenceIdeal.Terms.wrapCol (F := Ideal) s) := gather_congr _ _ _ _ _ _ rfl rfl rfl
    rw [scatterAdd_ideal, hz, hf]
    exact scatterAdd_congr _ _ _ _ _ _ _ _ hd rfl hi hg (ix2 v j)
  · -- the second program's segment sum: starts from zero, each gathered row times its edge's weight
    have hz : (broadcastInDim Cert.ReferenceIdeal.S50000x128 ![] Cert.ReferenceIdeal.Gen.bcast_S_S50000x128 (constant (F := Ideal) Cert.ReferenceIdeal.S_ .f32 0x00000000#32)) = fun _ => (0 : EReal) :=
      funext fun _ => (broadcastInDim_scalar_apply _ _ _).trans ((constant_apply _ _).trans Ideal.ofBits_zero_f32)
    have hu : (mulf (F := Ideal) (φ := .f32) (Host.gather Cert.ReferenceIdeal.gather_S50000x128_S370000x1_S370000x128_1_0_n_n_0_1_1128 hh (Cert.ReferenceIdeal.Terms.wrapCol (F := Ideal) s)) (broadcastInDim Cert.ReferenceIdeal.S370000x128 ![0, 1] Cert.ReferenceIdeal.Gen.bcast_S370000x1_S370000x128_0_1 (broadcastInDim Cert.ReferenceIdeal.S370000x1 ![0] Cert.ReferenceIdeal.Gen.bcast_S370000_S370000x1_0 (Cert.ReferenceIdeal.Terms.edgeNormG (F := Ideal) cv s d))))
        = fun j' => Host.gather (gatherRows2 50000 370000 128 Cert.ReferenceIdeal.gather_S50000x128_S370000x1_S370000x128_1_0_n_n_0_1_1128.wf) hh (Cert.ReferenceIdeal.Terms.wrapCol (F := Ideal) s) j' * (Host.gather (gatherRows1 50000 370000 Cert.ReferenceIdeal.gather_S50000_S370000x1_S370000_n_0_n_n_0_1_1.wf) cv (Cert.ReferenceIdeal.Terms.wrapCol (F := Ideal) s) (ix1 (j' 0)) * Host.gather (gatherRows1 50000 370000 Cert.ReferenceIdeal.gather_S50000_S370000x1_S370000_n_0_n_n_0_1_1.wf) cv (Cert.ReferenceIdeal.Terms.wrapCol (F := Ideal) d) (ix1 (j' 0))) := by
      funext j'
      obtain ⟨e, f, rfl⟩ : ∃ (e : Fin 370000) (f : Fin 128), j' = ix2 e f := ⟨j' 0, j' 1, eq_ix2 j'⟩
      exact edge_update_at hh cv s d e f
    have hd : (scatterRows2 50000 370000 128 Cert.ReferenceIdeal.scatter_S50000x128_S370000x1_S370000x128_1_0_0_1.wf) = Cert.ReferenceIdeal.scatter_S50000x128_S370000x1_S370000x128_1_0_0_1 := rfl
    have hi : Cert.ReferenceIdeal.Terms.rawCol (F := Ideal) d = broadcastInDim Cert.ReferenceIdeal.S370000x1 ![0] Cert.ReferenceIdeal.Gen.bcast_S370000_S370000x1_0 d := rfl
    rw [scatterAdd_ideal, hz, hu]
    exact scatterAdd_congr _ _ _ _ _ _ _ _ hd rfl hi rfl (ix2 v j)

/-! ## One layer of the two programs -/

theorem layer_eq (hh : (⟨2, ![50000, 128]⟩ : Shape).Idx → EReal) (x1 : (⟨Cert.KernelIdeal.S2x320000, .i32⟩ : BufTy).Contents (Elt Ideal)) (b : (⟨Cert.KernelIdeal.S128, .f32⟩ : BufTy).Contents (Elt Ideal)) :
    Cert.KernelIdeal.Terms.tailK (F := Ideal) (fun r => hh r * Cert.KernelIdeal.Terms.dinvCol (F := Ideal) x1 (ix2 (r 0) (0 : Fin 1))) x1 b = Cert.ReferenceIdeal.Terms.tailR (F := Ideal) hh x1 b := by
  unfold Cert.KernelIdeal.Terms.tailK Cert.ReferenceIdeal.Terms.tailR
  rw [src_eq, dst_eq]
  exact layer_generic hh (Cert.ReferenceIdeal.Terms.dinv (F := Ideal) x1) (dinv_bounds x1) (Cert.ReferenceIdeal.Terms.srcFull x1) (Cert.ReferenceIdeal.Terms.dstFull x1) (Cert.KernelIdeal.Terms.dinvCol (F := Ideal) x1) (dinvCol_at x1) b

/-- The kernel's launch on a table with 256 columns is the reference's product with its rows scaled by dinv. -/
theorem matScale_256 (x : (⟨Cert.KernelIdeal.S50000x256, .f32⟩ : BufTy).Contents (Elt Ideal)) (w : (⟨Cert.KernelIdeal.S256x128, .f32⟩ : BufTy).Contents (Elt Ideal)) (x1 : (⟨Cert.KernelIdeal.S2x320000, .i32⟩ : BufTy).Contents (Elt Ideal)) :
    matScale (K := 256) x w (Cert.KernelIdeal.Terms.dinvCol (F := Ideal) x1) = fun r => Cert.ReferenceIdeal.Terms.dot256 (F := Ideal) x w r * Cert.KernelIdeal.Terms.dinvCol (F := Ideal) x1 (ix2 (r 0) (0 : Fin 1)) := by
  funext r
  unfold matScale
  rw [Cert.RefProducts.dot256_apply]
theorem layer256 (x : (⟨Cert.KernelIdeal.S50000x256, .f32⟩ : BufTy).Contents (Elt Ideal)) (w : (⟨Cert.KernelIdeal.S256x128, .f32⟩ : BufTy).Contents (Elt Ideal)) (x1 : (⟨Cert.KernelIdeal.S2x320000, .i32⟩ : BufTy).Contents (Elt Ideal)) (b : (⟨Cert.KernelIdeal.S128, .f32⟩ : BufTy).Contents (Elt Ideal)) :
    Cert.KernelIdeal.Terms.tailK (F := Ideal) (matScale (K := 256) x w (Cert.KernelIdeal.Terms.dinvCol (F := Ideal) x1)) x1 b = Cert.ReferenceIdeal.Terms.tailR (F := Ideal) (Cert.ReferenceIdeal.Terms.dot256 (F := Ideal) x w) x1 b := by
  rw [matScale_256]
  exact layer_eq _ x1 b

/-- The kernel's launch on a table with 128 columns is the reference's product with its rows scaled by dinv. -/
theorem matScale_128 (x : (⟨Cert.KernelIdeal.S50000x128, .f32⟩ : BufTy).Contents (Elt Ideal)) (w : (⟨Cert.KernelIdeal.S128x128, .f32⟩ : BufTy).Contents (Elt Ideal)) (x1 : (⟨Cert.KernelIdeal.S2x320000, .i32⟩ : BufTy).Contents (Elt Ideal)) :
    matScale (K := 128) x w (Cert.KernelIdeal.Terms.dinvCol (F := Ideal) x1) = fun r => Cert.ReferenceIdeal.Terms.dot128 (F := Ideal) x w r * Cert.KernelIdeal.Terms.dinvCol (F := Ideal) x1 (ix2 (r 0) (0 : Fin 1)) := by
  funext r
  unfold matScale
  rw [Cert.RefProducts.dot128_apply]
theorem layer128 (x : (⟨Cert.KernelIdeal.S50000x128, .f32⟩ : BufTy).Contents (Elt Ideal)) (w : (⟨Cert.KernelIdeal.S128x128, .f32⟩ : BufTy).Contents (Elt Ideal)) (x1 : (⟨Cert.KernelIdeal.S2x320000, .i32⟩ : BufTy).Contents (Elt Ideal)) (b : (⟨Cert.KernelIdeal.S128, .f32⟩ : BufTy).Contents (Elt Ideal)) :
    Cert.KernelIdeal.Terms.tailK (F := Ideal) (matScale (K := 128) x w (Cert.KernelIdeal.Terms.dinvCol (F := Ideal) x1)) x1 b = Cert.ReferenceIdeal.Terms.tailR (F := Ideal) (Cert.ReferenceIdeal.Terms.dot128 (F := Ideal) x w) x1 b := by
  rw [matScale_128]
  exact layer_eq _ x1 b

end Cert.LayerBridge

end
-- ==== Proof.ScoresBridge.lean ====
/-
  The two programs' pair scores are one function of the nine arguments: layer by layer the node tables agree (the first
  launch against the first product, then each rectified layer against the next), and the pair scores are the same
  operations of the last layer's output.
-/
import proofs.«118284_j48473000903025_2_alg».proof.Proof.LayerBridge
import proofs.«118284_j48473000903025_2_alg».proof.Proof.KernelScores
import proofs.«118284_j48473000903025_2_alg».proof.Proof.RefChain

set_option maxRecDepth 16384

noncomputable section

namespace Cert.ScoresBridge

open Idealize.ShloMosaic

theorem scores_eq (x0 : (⟨Cert.KernelIdeal.S50000x256, .f32⟩ : BufTy).Contents (Elt Ideal)) (x1 : (⟨Cert.KernelIdeal.S2x320000, .i32⟩ : BufTy).Contents (Elt Ideal)) (x2 : (⟨Cert.KernelIdeal.S2x200000, .i32⟩ : BufTy).Contents (Elt Ideal)) (x3 : (⟨Cert.KernelIdeal.S256x128, .f32⟩ : BufTy).Contents (Elt Ideal)) (x4 : (⟨Cert.KernelIdeal.S128, .f32⟩ : BufTy).Contents (Elt Ideal)) (x5 : (⟨Cert.KernelIdeal.S128x128, .f32⟩ : BufTy).Contents (Elt Ideal)) (x6 : (⟨Cert.KernelIdeal.S128, .f32⟩ : BufTy).Contents (Elt Ideal)) (x7 : (⟨Cert.KernelIdeal.S128x128, .f32⟩ : BufTy).Contents (Elt Ideal)) (x8 : (⟨Cert.KernelIdeal.S128, .f32⟩ : BufTy).Contents (Elt Ideal)) :
    Cert.KernelIdeal.Chain.scores x0 x1 x2 x3 x4 x5 x6 x7 x8 = Cert.ReferenceIdeal.Chain.scores (F := Ideal) x0 x1 x2 x3 x4 x5 x6 x7 x8 := by
  unfold Cert.KernelIdeal.Chain.scores Cert.KernelIdeal.Chain.lay3 Cert.KernelIdeal.Chain.hid2 Cert.KernelIdeal.Chain.lay2 Cert.KernelIdeal.Chain.hid1 Cert.KernelIdeal.Chain.lay1 Cert.KernelIdeal.Chain.hid0 Cert.ReferenceIdeal.Chain.scores
  rw [Cert.LayerBridge.layer256 x0 x3 x1 x4, Cert.LayerBridge.relu_eq, Cert.LayerBridge.layer128 _ x5 x1 x6, Cert.LayerBridge.relu_eq, Cert.LayerBridge.layer128 _ x7 x1 x8, Cert.LayerBridge.decode_eq]

end Cert.ScoresBridge

end
-- ==== Proof.lean ====
/-
  A three-layer graph convolution followed by inner-product scores of candidate node pairs: the program with the
  matrix-product kernel against its jnp reference, at the exact reading of floats.

  Each layer is  out[v] = Σ_{e : dst e = v} (x·W)[src e] · dinv[src e] · dinv[dst e] + b,  the sum over the edges and the
  self-loops, dinv = deg^(−1/2) where the in-degree deg is positive and 0 elsewhere. The reference multiplies the two
  factors per edge. The kernel program scales row r of x·W by dinv r inside the kernel (that is `matScale`), gathers and
  adds up, and scales row v of the sum by dinv v afterwards. dinv is a nonnegative real at every node, and an edge that
  lands on v has (wrapped, clamped) destination v, so dinv[dst e] is a constant nonnegative real factor on the terms of
  v's sum and moves across it; products of extended reals associate. No input needs to be finite for this.

  The modules: `MatScale` (the kernel's whole-array function), `Region0/1/2` (each launch's ten row blocks assembled into
  it), `KernelTerms` / `RefTerms` (the host-side pieces of each program as functions), `KernelChain` (what each buffer
  holds between the segments of the kernel program, down to its result), `RefChain` (the reference's result as the
  composition of its pieces), `LibGcnScale`, `LibGuardedRsqrt` and `LayerBridge` (one layer of the two programs is one function),
  `ScoresBridge` (so are the scores). The kernel program's run is `KernelRun`, the reference's `RefRunPatched`.
-/
import proofs.«118284_j48473000903025_2_alg».proof.Defs
import proofs.«118284_j48473000903025_2_alg».proof.Proof.Gen.Kernel
import proofs.«118284_j48473000903025_2_alg».proof.Proof.Gen.Kernel.Skeleton
import proofs.«118284_j48473000903025_2_alg».proof.Proof.Gen.Kernel.Launch
import proofs.«118284_j48473000903025_2_alg».proof.Proof.Gen.Kernel.Points
import proofs.«118284_j48473000903025_2_alg».proof.Proof.Gen.Kernel.Frame
import proofs.«118284_j48473000903025_2_alg».proof.Proof.Gen.KernelIdeal
import proofs.«118284_j48473000903025_2_alg».proof.Proof.Gen.KernelIdeal.Skeleton
import proofs.«118284_j48473000903025_2_alg».proof.Proof.Gen.KernelIdeal.Launch
import proofs.«118284_j48473000903025_2_alg».proof.Proof.Gen.KernelIdeal.Points
import proofs.«118284_j48473000903025_2_alg».proof.Proof.Gen.KernelIdeal.Frame
import proofs.«118284_j48473000903025_2_alg».proof.Proof.Gen.ReferenceIdeal
import proofs.«118284_j48473000903025_2_alg».proof.Proof.Gen.Pre_finite_inputs
import proofs.«118284_j48473000903025_2_alg».proof.Proof.KernelRun
import proofs.«118284_j48473000903025_2_alg».proof.Proof.KernelChain
import proofs.«118284_j48473000903025_2_alg».proof.Proof.RefRunPatched
import proofs.«118284_j48473000903025_2_alg».proof.Proof.RefChain
import proofs.«118284_j48473000903025_2_alg».proof.Proof.ScoresBridge
import Idealize.ShloMosaic.Adequacy
import Idealize.ShloMosaic.Init

noncomputable section

namespace Cert.Proof

open Idealize.ShloMosaic Idealize.SL.Sem

/-- The kernel program as printed runs, and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments alone: its run, with the result forgotten. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the nine arguments both programs end at the same pair scores: the kernel program's result
    is `Chain.scores` of its arguments, the reference's is its own composition of them, and the two are one function. -/
theorem algebraic : Cert.algebraic_KernelIdeal_ReferenceIdeal := by
  intro m ρ m' ρ' _ hagree
  refine ⟨fun c => Cert.KernelIdeal.Chain.scores (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.KernelIdeal.Chain.W11_v85 m ρ c), (h c).2⟩)
      (Cert.KernelIdeal.ResultRun.run m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.Chain.res_eq]
    obtain ⟨a0, a1, a2, a3, a4, a5, a6, a7, a8⟩ := hagree c
    rw [a0, a1, a2, a3, a4, a5, a6, a7, a8]
    exact (Cert.ScoresBridge.scores_eq _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
